-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩

abbrev nBuf : Space → Nat
  | .hbm => 15
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S10000x10000, .bf16⟩
  | .hbm, ⟨12, _⟩ => ⟨S10000x128, .bf16⟩
  | .hbm, ⟨13, _⟩ => ⟨S10000x128, .bf16⟩
  | .hbm, ⟨14, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x10000, .bf16⟩
  | .local _ .vmem, ⟨7, _⟩ => ⟨S400x10000, .bf16⟩
  | .local _ .vmem, ⟨8, _⟩ => ⟨S400x128, .bf16⟩
  | .local _ .vmem, ⟨9, _⟩ => ⟨S400x128, .bf16⟩
  | .local _ .vmem, ⟨10, _⟩ => ⟨S400x128, .bf16⟩
  | .local _ .vmem, ⟨11, _⟩ => ⟨S400x128, .bf16⟩
  | .local _ .vmem, ⟨12, _⟩ => ⟨S10000x128, .bf16⟩
  | .local _ .vmem, ⟨13, _⟩ => ⟨S1000x10000, .bf16⟩
  | .local _ .vmem, ⟨14, _⟩ => ⟨S1000x10000, .bf16⟩
  | .local _ .vmem, ⟨15, _⟩ => ⟨S10000x128, .bf16⟩
  | .local _ .vmem, ⟨16, _⟩ => ⟨S1x128, .f32⟩
  | .local _ .vmem, ⟨17, _⟩ => ⟨S1000x128, .bf16⟩
  | .local _ .vmem, ⟨18, _⟩ => ⟨S1000x128, .bf16⟩
  | .local _ .vmem, ⟨19, _⟩ => ⟨S128x128, .f32⟩
  | .local _ .vmem, ⟨20, _⟩ => ⟨S1x128, .f32⟩
  | .local _ .vmem, ⟨21, _⟩ => ⟨S1000x128, .f32⟩
  | .local _ .vmem, ⟨22, _⟩ => ⟨S1000x128, .f32⟩
  | .local _ .vmem, ⟨23, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def k1_cond1 (i : grid1.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg0 : BitVec 32 := BitVec.ofNat 32 (i 0).val
  let c1000_i32 : BitVec 32 := 1000#32
  let v25 : BitVec 32 := Scalar.muli arg0 c1000_i32
  let v26 : Index := Scalar.indexCast v25
  let c0_13 : Index := 0#32
  ![v26.toNat, 0]
def k1_cond2 (i : grid1.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c10_i32 : BitVec 32 := 10#32
  let v0 : BitVec 1 := Scalar.cmpi .slt arg0 c10_i32
  let c19_i32 : BitVec 32 := 19#32
  let v1 : BitVec 32 := Scalar.subi c19_i32 arg0
  let v2 : BitVec 32 := Scalar.select v0 arg0 v1
  let c0_i32 : BitVec 32 := 0#32
  let c0_i32_0 : BitVec 32 := 0#32
  ![v2.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c10_i32 : BitVec 32 := 10#32
  let v0 : BitVec 1 := Scalar.cmpi .slt arg0 c10_i32
  let c19_i32 : BitVec 32 := 19#32
  let v1 : BitVec 32 := Scalar.subi c19_i32 arg0
  let c9_i32 : BitVec 32 := 9#32
  let v2 : BitVec 32 := Scalar.select v0 c9_i32 v1
  let c0_i32 : BitVec 32 := 0#32
  let c0_i32_0 : BitVec 32 := 0#32
  ![v2.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1000x10000_S10000x128_S1000x128_1_0_0_1_n_n_wf : DotDims.WF S1000x10000 S10000x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .bf16 = 32 ∨ (Rect.block (s := S10000x128) S400x128.size (cc0_transform_7 i) (hinb0_7 i)).WholeWords (EltTy.packing .bf16)
  hrank1 : 0 < grid1.rank
  k1_off1_inb : ∀ i : grid1.Coords, ∀ (k1_h1 : k1_cond1 i = 1#1), ∀ a, (k1_off1 i) a + S1000x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .bf16 = 32 ∨ (Rect.block (s := S10000x128) S1000x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsBody0.lean ====
import proofs.«108309_g5239860101595_cont_sun_m_358_23_alg».proof.Proof.Gen.Kernel.Launch
import proofs.«108309_g5239860101595_cont_sun_m_358_23_alg».proof.Proof.Gen.Kernel.Skeleton
import proofs.«108309_g5239860101595_cont_sun_m_358_23_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The layer-1 kernel body on whole staging buffers

The body stores four things: the adjacency block narrowed (window 5), the clamped convolution of the block against the
support kept in scratch (window 6), that block's product with the second weight (window 7) and — at the first grid point
only — the support of the first layer into the scratch, which every later point reads back unchanged. -/

/-- Two zero offsets, however spelt. -/
theorem hz2 : (![0, 0] : Fin 2 → Nat) = fun _ => 0 := by
  funext a; match a with | ⟨0, _⟩ => rfl | ⟨1, _⟩ => rfl

/-- One store through the whole-buffer rectangle leaves its payload, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- A load of a whole buffer reads its contents, and a whole load after one whole store reads the stored value. -/
macro "read_back" : tactic => `(tactic| simp only [View.readAt_eq_ld, Memref.IsWhole.read_unread, View.readCov_unit_zero (S := S10000x128) _ hz2,
  View.ld_unit_zero (S := S400x10000) hz2, View.ld_unit_zero (S := S10000x128) hz2, View.ld_unit_zero (S := S128x128) hz2,
  View.ld_unit_zero (S := S1x128) hz2, View.ld_unit_zero (S := S400x128) hz2, View.ld_unit_zero (S := S1000x10000) hz2,
  View.ld_unit_zero (S := S1000x128) hz2])

/-- The body's one branch condition: "this is grid point 0", as the kernel computes it. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- AT THE FIRST POINT: from the five input buffers at their contents and the four written buffers at anything, the body
    leaves the scratch at the first layer's support and the three output buffers at their payloads over that support. -/
theorem sound_first (c : Dev nD) (E : Set ℕ) (i : grid0.Coords) (hc : cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S400x10000 .bf16) (harg6 : arg6.IsWhole) (arg7 : Memref sig .tc .vmem S400x128 .bf16) (harg7 : arg7.IsWhole) (arg8 : Memref sig .tc .vmem S400x128 .bf16) (harg8 : arg8.IsWhole) (arg9 : Memref sig .tc .vmem S10000x128 .bf16) (harg9 : arg9.IsWhole)
    (a : Vec F S400x10000 .f32) (x : Vec F S10000x128 .f32) (w1 : Vec F S128x128 .f32) (b : Vec F S1x128 .f32) (w2 : Vec F S128x128 .f32) (K : PUnit → sProp 𝕄) :
    iprop(owns (c : Thread nD τ) arg1 fullShare a ∗ owns (c : Thread nD τ) arg2 fullShare x ∗ owns (c : Thread nD τ) arg3 fullShare w1
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare a ∗ owns (c : Thread nD τ) arg2 fullShare x ∗ owns (c : Thread nD τ) arg3 fullShare w1
            ∗ owns (c : Thread nD τ) arg4 fullShare b ∗ owns (c : Thread nD τ) arg5 fullShare w2
            ∗ owns (c : Thread nD τ) arg6 fullShare (k0_pay2 a)
            ∗ owns (c : Thread nD τ) arg7 fullShare (k0_pay3 a (k0_pay1 x w1) b)
            ∗ owns (c : Thread nD τ) arg8 fullShare (k0_pay4 a (k0_pay1 x w1) b w2)
            ∗ owns (c : Thread nD τ) arg9 fullShare (k0_pay1 x w1)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    try sl_unfold_run_names
    refine (read_store_whole _ _ hz2 _ _).trans ?_
    read_back
  isplitl [H7]
  · iexists _; isplitr
    swap; · iexact H7
    ipureintro
    try sl_unfold_run_names
    refine (read_store_whole _ _ hz2 _ _).trans ?_
    read_back
  isplitl [H8]
  · iexists _; isplitr
    swap; · iexact H8
    ipureintro
    try sl_unfold_run_names
    refine (read_store_whole _ _ hz2 _ _).trans ?_
    read_back
  iexists _; isplitr
  swap; · iexact H9
  ipureintro
  try sl_unfold_run_names
  refine (read_store_whole _ _ hz2 _ _).trans ?_
  read_back

set_option maxHeartbeats 1000000 in
/-- AT EVERY LATER POINT: the scratch, at contents `s`, is only read; the three output buffers end at their payloads over `s`. -/
theorem sound_rest (c : Dev nD) (E : Set ℕ) (i : grid0.Coords) (hc : ¬cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S400x10000 .bf16) (harg6 : arg6.IsWhole) (arg7 : Memref sig .tc .vmem S400x128 .bf16) (harg7 : arg7.IsWhole) (arg8 : Memref sig .tc .vmem S400x128 .bf16) (harg8 : arg8.IsWhole) (arg9 : Memref sig .tc .vmem S10000x128 .bf16) (harg9 : arg9.IsWhole)
    (a : Vec F S400x10000 .f32) (x : Vec F S10000x128 .f32) (w1 : Vec F S128x128 .f32) (b : Vec F S1x128 .f32) (w2 : Vec F S128x128 .f32)
    (s : Vec F S10000x128 .bf16) (K : PUnit → sProp 𝕄) :
    iprop(owns (c : Thread nD τ) arg1 fullShare a ∗ owns (c : Thread nD τ) arg2 fullShare x ∗ owns (c : Thread nD τ) arg3 fullShare w1
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s
        ∗ (iprop(owns (c : Thread nD τ) arg1 fullShare a ∗ owns (c : Thread nD τ) arg2 fullShare x ∗ owns (c : Thread nD τ) arg3 fullShare w1
            ∗ owns (c : Thread nD τ) arg4 fullShare b ∗ owns (c : Thread nD τ) arg5 fullShare w2
            ∗ owns (c : Thread nD τ) arg6 fullShare (k0_pay2 a)
            ∗ owns (c : Thread nD τ) arg7 fullShare (k0_pay3 a s b)
            ∗ owns (c : Thread nD τ) arg8 fullShare (k0_pay4 a s b w2)
            ∗ owns (c : Thread nD τ) arg9 fullShare s) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg9.eq_unread hf9
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    try sl_unfold_run_names
    refine (read_store_whole _ _ hz2 _ _).trans ?_
    read_back
  isplitl [H7]
  · iexists _; isplitr
    swap; · iexact H7
    ipureintro
    try sl_unfold_run_names
    refine (read_store_whole _ _ hz2 _ _).trans ?_
    read_back
  isplitl [H8]
  · iexists _; isplitr
    swap; · iexact H8
    ipureintro
    try sl_unfold_run_names
    refine (read_store_whole _ _ hz2 _ _).trans ?_
    read_back
  iexists _; isplitr; · ipureintro; exact harg9.read_unread _
  iexact H9

end Cert.Kernel.Hand

end
-- ==== Proof.BitsData0.lean ====
import proofs.«108309_g5239860101595_cont_sun_m_358_23_alg».proof.Proof.BitsBody0
import proofs.«108309_g5239860101595_cont_sun_m_358_23_alg».proof.Proof.Gen.Kernel.Skeleton
import proofs.«108309_g5239860101595_cont_sun_m_358_23_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # Region 0 (the layer-1 call): the windows' blocks, the scratch invariant and the body obligation

`V` is what the TensorCore's buffers hold when the region is entered. The scratch holds, from the first point's end
on, the first layer's support computed from the whole feature and weight arrays; before that anything. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev t₀ : Fin cfg0.N := ⟨0, by decide⟩

/-- The kernel's scratch operand: a whole scoped buffer of its own. -/
abbrev scM0 : Memref sig .tc .vmem S10000x128 .bf16 := Memref.whole cc0_scratch0

/-- The first layer's support as the first point computes it from the whole feature and weight arrays. -/
def S1 (c : Dev nD) : Vec F S10000x128 .bf16 := k0_pay1 (iblk0 V c 1 t₀) (iblk0 V c 2 t₀)

/-- What the kernel's invariant holds besides the scratch: whatever, with the scratch at any contents, makes the
    region's plain invariant (the other scoped buffers and the generator register). -/
def Rest0 (c : Dev nD) : sProp 𝕄 := iprop((∃ d, owns (c : Thread nD τ) scM0 fullShare d) -∗ Pipeline.ΦA spec0 c)

/-- The invariant before point `n`: the scratch at some contents — the first layer's support once a point has run — beside the rest. -/
def Phi0 (c : Dev nD) (n : ℕ) : sProp 𝕄 :=
  iprop((∃ d, owns (c : Thread nD τ) scM0 fullShare d ∗ ⌜n ≠ 0 → d = S1 V c⌝) ∗ Rest0 c)

/-- The region's plain invariant splits off the scratch … -/
theorem PhiA_split0 (c : Dev nD) : (Pipeline.ΦA spec0 c : sProp 𝕄) ⊢ iprop((∃ d, owns (c : Thread nD τ) scM0 fullShare d) ∗ Rest0 c) := by
  have e : (Pipeline.ΦA spec0 c : sProp 𝕄) ⊢ iprop((∃ d, owns (c : Thread nD τ) scM0 fullShare d) ∗ ((∃ d, owns (c : Thread nD τ) scM0 fullShare d) -∗ Pipeline.ΦA spec0 c)) := by
    unfold Pipeline.ΦA; rw [scopedRest0_eq]; simp only [scM0, owns_whole]
    iintro ⟨⟨HA, HR⟩, HP⟩
    isplitl [HA]; · iexact HA
    iintro HA
    isplitr [HP]
    · isplitl [HA]; · iexact HA
      iexact HR
    iexact HP
  exact e

/-- … and is put back from it. -/
theorem PhiA_join0 (c : Dev nD) : iprop((∃ d, owns (c : Thread nD τ) scM0 fullShare d) ∗ Rest0 c) ⊢ (Pipeline.ΦA spec0 c : sProp 𝕄) := by
  unfold Rest0
  iintro ⟨HA, HR⟩
  iapply HR; iexact HA

/-- The proof data of pipeline 0 on core `c`: the arrays as the region finds them; after the body each input's buffer at
    its block, each output's at its payload over the input blocks and the support; the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t)
    | ⟨6, _⟩ => k0_pay3 (iblk0 V c 0 t) (S1 V c) (iblk0 V c 3 t)
    | ⟨7, _⟩ => k0_pay4 (iblk0 V c 0 t) (S1 V c) (iblk0 V c 3 t) (iblk0 V c 4 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 0 t) := by dsimp only [dat0]
theorem after0_6 (c : Dev nD) (t : Fin cfg0.N) : (dat0 V c).after 6 t = k0_pay3 (iblk0 V c 0 t) (S1 V c) (iblk0 V c 3 t) := by dsimp only [dat0]
theorem after0_7 (c : Dev nD) (t : Fin cfg0.N) : (dat0 V c).after 7 t = k0_pay4 (iblk0 V c 0 t) (S1 V c) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks; at the first point the scratch is filled with the
    support, at every later one it is found holding it; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = Phi0 V c (t.val + 1) from rfl,
    show (dat0 V c).Φ t.castSucc = Phi0 V c t.val from rfl,
    show (dat0 V c).owesAt () t.succ = (dat0 V c).owesAt () t.castSucc from rfl,
    after0_0, after0_1, after0_2, after0_3, after0_4, after0_5, after0_6, after0_7]
  unfold Phi0
  iintro ⟨⟨⟨%ds, HS, %hd⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hz : t.val = 0
  · have ht : t = t₀ := Fin.ext hz
    subst ht
    iapply (sound_first c Set.univ (grid0.coords t₀) ((hcond0 t₀).mpr rfl) _ _ _ _ _ _ _ _ _ _ _ _ _ _ _ _ _ _
      (iblk0 V c 0 t₀) (iblk0 V c 1 t₀) (iblk0 V c 2 t₀) (iblk0 V c 3 t₀) (iblk0 V c 4 t₀) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexists _; iexact HS
    iintro ⟨H0, H1, H2, H3, H4, H5, H6, H7, HS⟩
    isplitl [HS HR]
    · isplitl [HS]
      · iexists (S1 V c); isplitl [HS]; · iexact HS
        ipureintro; exact fun _ => rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain rfl := hd hz
    iapply (sound_rest c Set.univ (grid0.coords t) (fun h => hz ((hcond0 t).mp h)) _ _ _ _ _ _ _ _ _ _ _ _ _ _ _ _ _ _
      (iblk0 V c 0 t) (iblk0 V c 1 t) (iblk0 V c 2 t) (iblk0 V c 3 t) (iblk0 V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR]
    · isplitl [HS]
      · iexists (S1 V c); isplitl [HS]; · iexact HS
        ipureintro; exact fun _ => rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point is the region's plain one, -/
theorem hin0 (c : Dev nD) : (Pipeline.ΦA spec0 c : sProp 𝕄) ⊢ (dat0 V c).Φ 0 := by
  rw [show (dat0 V c).Φ 0 = Phi0 V c 0 from rfl]; unfold Phi0
  refine (PhiA_split0 c).trans ?_
  iintro ⟨⟨%d, HA⟩, HR⟩
  isplitl [HA]
  · iexists d; isplitl [HA]; · iexact HA
    ipureintro; exact fun h => absurd rfl h
  iexact HR

/-- and after the last point gives it back. -/
theorem hout0 (c : Dev nD) : (dat0 V c).Φ (Fin.last cfg0.N) ⊢ (Pipeline.ΦA spec0 c : sProp 𝕄) := by
  rw [show (dat0 V c).Φ (Fin.last cfg0.N) = Phi0 V c cfg0.N from rfl]; unfold Phi0
  refine .trans ?_ (PhiA_join0 c)
  iintro ⟨⟨%d, HA, -⟩, HR⟩
  isplitl [HA]; · iexists d; iexact HA
  iexact HR

end Region0

end Cert.Kernel.Hand

end
-- ==== Proof.BitsBody1.lean ====
import proofs.«108309_g5239860101595_cont_sun_m_358_23_alg».proof.Proof.BitsBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The layers-2-and-3 kernel body on whole staging buffers

The body has two exclusive branches over its twenty grid points. At the first ten it computes one block of 1000 rows of
the second hidden layer (the clamped convolution of the adjacency block against the second support, plus the first
layer's block), multiplies it by the third weight, and stores the product into the matching slab of the scratch; the
output buffer is not touched. At the last ten it reads the whole scratch — by then the third support — and stores the
adjacency block times it, plus the third bias, into the output buffer; the scratch is only read. -/

/-- The first branch is taken at the first ten grid points: there the layer-2 slab is written. -/
theorem hcond1 : ∀ t : Fin cfg1.N, k1_cond1 (grid1.coords t) = 1#1 ↔ t.val < 10 :=
  (by decide +kernel : ∀ t : Fin grid1.N, k1_cond1 (grid1.coords t) = 1#1 ↔ t.val < 10)

/-- The second branch is taken at the last ten grid points: there the output block is written. -/
theorem hcond2 : ∀ t : Fin cfg1.N, k1_cond2 (grid1.coords t) = 1#1 ↔ 10 ≤ t.val :=
  (by decide +kernel : ∀ t : Fin grid1.N, k1_cond2 (grid1.coords t) = 1#1 ↔ 10 ≤ t.val)

/-- At the first ten grid points the slab written starts at row 1000·t, column 0. -/
theorem hoff1 : ∀ t : Fin cfg1.N, t.val < 10 → k1_off1 (grid1.coords t) = ![1000 * t.val, 0] :=
  (by decide +kernel : ∀ t : Fin grid1.N, t.val < 10 → k1_off1 (grid1.coords t) = ![1000 * t.val, 0])

/-- One store through a rectangle of a whole buffer at contents `X` leaves `X` with the payload laid over it on the
    rectangle: under the rectangle the store's payload is read, elsewhere the buffer is as it was. -/
theorem read_store_overlay {κ : Kind} {sp : Space} {S : Shape} {e : EltTy} {m : Memref sig κ sp S e} (hm : m.IsWhole)
    (X : S.Idx → Elt F e) (R : Rect S) (w : R.shape.Idx → Elt F e) :
    m.view.read (Elt F) (m.view.writes (Elt F) (hm.unread X) [(⟨R, w⟩ : View.Piece (Elt F) S e)]) = R.overlay X w := by
  funext y
  by_cases hy : y ∈ R.set
  · obtain ⟨x, rfl⟩ : ∃ x, R.emb x = y := R.exists_idx_of_mem hy
    rw [View.read_writes_cons_emb, Rect.overlay_emb]
  · rw [View.read_writes_apply_of_forall_not_mem _ _ y _ (fun p hp => by rw [List.mem_singleton] at hp; subst hp; exact hy),
      Rect.overlay_of_not_mem _ _ _ hy, hm.read_unread]

set_option maxHeartbeats 1000000 in
/-- AT THE FIRST TEN POINTS: the output buffer is untouched; the scratch keeps its contents `sc` everywhere except on
    the slab of 1000 rows at this point's offset, which ends at the second hidden layer's block times the third weight. -/
theorem sound_l2 (c : Dev nD) (E : Set ℕ) (i : grid1.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1000x128 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S10000x128 .f32) (harg8 : arg8.IsWhole)
    (hc1 : k1_cond1 i = 1#1) (hc2 : ¬ k1_cond2 i = 1#1)
    (a : Vec F S1000x10000 .bf16) (s2 : Vec F S10000x128 .bf16) (b2 : Vec F S1x128 .f32) (h1 : Vec F S1000x128 .bf16) (w3 : Vec F S128x128 .f32) (b3 : Vec F S1x128 .f32)
    (o : Vec F S1000x128 .f32) (sc : Vec F S10000x128 .f32) (K : PUnit → sProp 𝕄) :
    iprop(owns (c : Thread nD τ) arg1 fullShare a ∗ owns (c : Thread nD τ) arg2 fullShare s2 ∗ owns (c : Thread nD τ) arg3 fullShare b2
        ∗ owns (c : Thread nD τ) arg4 fullShare h1 ∗ owns (c : Thread nD τ) arg5 fullShare w3 ∗ owns (c : Thread nD τ) arg6 fullShare b3
        ∗ owns (c : Thread nD τ) arg7 fullShare o ∗ owns (c : Thread nD τ) arg8 fullShare sc
        ∗ (iprop(owns (c : Thread nD τ) arg1 fullShare a ∗ owns (c : Thread nD τ) arg2 fullShare s2 ∗ owns (c : Thread nD τ) arg3 fullShare b2
        ∗ owns (c : Thread nD τ) arg4 fullShare h1 ∗ owns (c : Thread nD τ) arg5 fullShare w3 ∗ owns (c : Thread nD τ) arg6 fullShare b3
            ∗ owns (c : Thread nD τ) arg7 fullShare o
            ∗ owns (c : Thread nD τ) arg8 fullShare ((Rect.unit (s := S10000x128) (k1_off1 i) S1000x128.size (Facts₀.k1_off1_inb i hc1)).overlay sc (k1_pay1 a s2 b2 h1 w3))) -∗ K ⟨⟩))
      ⊢ wp frame (wpE (defs₀ (F := F)) Variants.none c none) E (cc1__layer23_kernel i arg1 harg1 arg2 harg2 arg3 harg3 arg4 harg4 arg5 harg5 arg6 harg6 arg7 harg7 arg8 harg8) K := by
  simp only [cc1__layer23_kernel_eq_skeleton]; unfold cc1__layer23_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  try sl_unfold_run_names
  refine (read_store_overlay harg8 sc _ _).trans ?_
  read_back

set_option maxHeartbeats 1000000 in
/-- AT THE LAST TEN POINTS: the scratch, at contents `sc`, is only read (whole); the output buffer ends at the
    adjacency block times the scratch, plus the third bias. Nothing else changes. -/
theorem sound_l3 (c : Dev nD) (E : Set ℕ) (i : grid1.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1000x128 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S10000x128 .f32) (harg8 : arg8.IsWhole)
    (hc1 : ¬ k1_cond1 i = 1#1) (hc2 : k1_cond2 i = 1#1)
    (a : Vec F S1000x10000 .bf16) (s2 : Vec F S10000x128 .bf16) (b2 : Vec F S1x128 .f32) (h1 : Vec F S1000x128 .bf16) (w3 : Vec F S128x128 .f32) (b3 : Vec F S1x128 .f32)
    (sc : Vec F S10000x128 .f32) (K : PUnit → sProp 𝕄) :
    iprop(owns (c : Thread nD τ) arg1 fullShare a ∗ owns (c : Thread nD τ) arg2 fullShare s2 ∗ owns (c : Thread nD τ) arg3 fullShare b2
        ∗ owns (c : Thread nD τ) arg4 fullShare h1 ∗ owns (c : Thread nD τ) arg5 fullShare w3 ∗ owns (c : Thread nD τ) arg6 fullShare b3
        ∗ (∃ d, owns (c : Thread nD τ) arg7 fullShare d) ∗ owns (c : Thread nD τ) arg8 fullShare sc
        ∗ (iprop(owns (c : Thread nD τ) arg1 fullShare a ∗ owns (c : Thread nD τ) arg2 fullShare s2 ∗ owns (c : Thread nD τ) arg3 fullShare b2
        ∗ owns (c : Thread nD τ) arg4 fullShare h1 ∗ owns (c : Thread nD τ) arg5 fullShare w3 ∗ owns (c : Thread nD τ) arg6 fullShare b3
            ∗ owns (c : Thread nD τ) arg7 fullShare (k1_pay2 a sc b3) ∗ owns (c : Thread nD τ) arg8 fullShare sc) -∗ K ⟨⟩))
      ⊢ wp frame (wpE (defs₀ (F := F)) Variants.none c none) E (cc1__layer23_kernel i arg1 harg1 arg2 harg2 arg3 harg3 arg4 harg4 arg5 harg5 arg6 harg6 arg7 harg7 arg8 harg8) K := by
  simp only [cc1__layer23_kernel_eq_skeleton]; unfold cc1__layer23_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    try sl_unfold_run_names
    refine (read_store_whole _ _ hz2 _ _).trans ?_
    read_back
  iexists _; isplitr; · ipureintro; exact harg8.read_unread _
  iexact H8

end Cert.Kernel.Hand

end
-- ==== Proof.BitsData1.lean ====
import proofs.«108309_g5239860101595_cont_sun_m_358_23_alg».proof.Proof.BitsBody1
import proofs.«108309_g5239860101595_cont_sun_m_358_23_alg».proof.Proof.Gen.Kernel.Skeleton
import proofs.«108309_g5239860101595_cont_sun_m_358_23_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.ValueIdx
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # Region 1 (the layers-2+3 call): the windows' blocks, the scratch invariant and the body obligation

The first ten grid points each write one 1000-row slab of the third layer's support into the scratch; the last ten read
the whole scratch and write one block of the result each. Before point `n` the scratch therefore holds the support on
its first `1000 · min n 10` rows, and anything below them. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The kernel's scratch operand: a whole scoped buffer of its own. -/
abbrev scM1 : Memref sig .tc .vmem S10000x128 .f32 := Memref.whole cc1_scratch0

/-- The grid point whose slab holds row `(y 0)` of the scratch: the row's thousand. -/
def slabPt (y : S10000x128.Idx) : Fin cfg1.N :=
  ⟨(y 0).val / 1000, lt_of_lt_of_le (by have := ValueIdx.idx2_lt0 y; omega : (y 0).val / 1000 < 10) (by decide : 10 ≤ cfg1.N)⟩

/-- Where in that slab: the row's remainder, the same column. -/
def slabIx (y : S10000x128.Idx) : S1000x128.Idx :=
  ValueIdx.ix2 (⟨(y 0).val % 1000, Nat.mod_lt _ (by decide)⟩ : Fin 1000) (⟨(y 1).val, ValueIdx.idx2_lt1 y⟩ : Fin 128)

/-- The third layer's support as the first ten points compute it, slab by slab, from the windows' blocks. -/
def S3 (c : Dev nD) : Vec F S10000x128 .f32 := fun y =>
  k1_pay1 (iblk1 V c 0 (slabPt y)) (iblk1 V c 1 (slabPt y)) (iblk1 V c 2 (slabPt y)) (iblk1 V c 3 (slabPt y)) (iblk1 V c 4 (slabPt y)) (slabIx y)

/-- The scratch agrees with the support on its first `1000 · n` rows. -/
def Good1 (c : Dev nD) (n : ℕ) (d : Vec F S10000x128 .f32) : Prop :=
  ∀ y : S10000x128.Idx, (y 0).val < 1000 * n → d y = S3 V c y

/-- What the kernel's invariant holds besides the scratch. -/
def Rest1 (c : Dev nD) : sProp 𝕄 := iprop((∃ d, owns (c : Thread nD τ) scM1 fullShare d) -∗ Pipeline.ΦA spec1 c)

/-- The invariant before point `n`. -/
def Phi1 (c : Dev nD) (n : ℕ) : sProp 𝕄 :=
  iprop((∃ d, owns (c : Thread nD τ) scM1 fullShare d ∗ ⌜Good1 V c (min n 10) d⌝) ∗ Rest1 c)

/-- The core's scoped buffers that region 1 does not stage, the scratch first. -/
theorem scopedRest1_eq' {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f) ∗ (∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg2_0), ((c : Thread nD τ).loc cc0_stg2_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc0_stg5_0), ((c : Thread nD τ).loc cc0_stg5_0) ↦{fullShare} f) ∗ (∃ f : Buf Val ((c : Thread nD τ).loc cc0_stg5_1), ((c : Thread nD τ).loc cc0_stg5_1) ↦{fullShare} f) ∗ (∃ f : Buf Val ((c : Thread nD τ).loc cc0_stg6_0), ((c : Thread nD τ).loc cc0_stg6_0) ↦{fullShare} f) ∗ (∃ f : Buf Val ((c : Thread nD τ).loc cc0_stg6_1), ((c : Thread nD τ).loc cc0_stg6_1) ↦{fullShare} f) ∗ (∃ f : Buf Val ((c : Thread nD τ).loc cc0_stg7_0), ((c : Thread nD τ).loc cc0_stg7_0) ↦{fullShare} f) ∗ (∃ f : Buf Val ((c : Thread nD τ).loc cc0_stg7_1), ((c : Thread nD τ).loc cc0_stg7_1) ↦{fullShare} f) ∗ (∃ f : Buf Val ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg2_0, cc0_stg3_0, cc0_stg4_0, cc0_stg5_0, cc0_stg5_1, cc0_stg6_0, cc0_stg6_1, cc0_stg7_0, cc0_stg7_1, cc0_scratch0] (by decide) (by decide)

/-- The region's plain invariant splits off the scratch … -/
theorem PhiA_split1 (c : Dev nD) : (Pipeline.ΦA spec1 c : sProp 𝕄) ⊢ iprop((∃ d, owns (c : Thread nD τ) scM1 fullShare d) ∗ Rest1 c) := by
  have e : (Pipeline.ΦA spec1 c : sProp 𝕄) ⊢ iprop((∃ d, owns (c : Thread nD τ) scM1 fullShare d) ∗ ((∃ d, owns (c : Thread nD τ) scM1 fullShare d) -∗ Pipeline.ΦA spec1 c)) := by
    unfold Pipeline.ΦA; rw [scopedRest1_eq']; simp only [scM1, owns_whole]
    iintro ⟨⟨HA, HR⟩, HP⟩
    isplitl [HA]; · iexact HA
    iintro HA
    isplitr [HP]
    · isplitl [HA]; · iexact HA
      iexact HR
    iexact HP
  exact e

/-- … and is put back from it. -/
theorem PhiA_join1 (c : Dev nD) : iprop((∃ d, owns (c : Thread nD τ) scM1 fullShare d) ∗ Rest1 c) ⊢ (Pipeline.ΦA spec1 c : sProp 𝕄) := by
  unfold Rest1
  iintro ⟨HA, HR⟩
  iapply HR; iexact HA

/-- The proof data of pipeline 1 on core `c`. The result window's entry at a point of the first phase, where the window is
    idle and not written back, is a placeholder nothing reads. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (S3 V c) (iblk1 V c 5 t)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (iblk1 V c 0 t) (S3 V c) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- In the first phase the result window is idle and not written back; in the second it is live. -/
theorem idleAt1_6 : ∀ t : Fin cfg1.N, t.val < 10 → cfg1.idle 6 (grid1.coords t) = true := by decide +kernel
theorem noFlush1_6 : ∀ t : Fin cfg1.N, t.val < 10 → (cfg1.win 6).flush t = false := by decide +kernel
theorem liveAt1_6 : ∀ t : Fin cfg1.N, 10 ≤ t.val → cfg1.idle 6 (grid1.coords t) = false := by decide +kernel

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- A row of the slab written at point `t` belongs to that point, at its remainder. -/
theorem slab_row (t : Fin cfg1.N) (ht : t.val < 10) (x : S1000x128.Idx) (y : S10000x128.Idx)
    (h0 : (y 0).val = 1000 * t.val + (x 0).val) (h1 : (y 1).val = (x 1).val) : slabPt y = t ∧ slabIx y = x := by
  have hx := ValueIdx.idx2_lt0 x
  refine ⟨Fin.ext ?_, ?_⟩
  · show (y 0).val / 1000 = t.val
    rw [h0]; omega
  · funext a
    match a with
    | ⟨0, _⟩ => exact Fin.ext (by show (y 0).val % 1000 = (x 0).val; rw [h0]; omega)
    | ⟨1, _⟩ => exact Fin.ext (by show (y 1).val = (x 1).val; exact h1)

/-- The slab written at point `t` of the first phase extends the rows on which the scratch holds the support. -/
theorem good_step (c : Dev nD) (t : Fin cfg1.N) (ht : t.val < 10) (hc1 : k1_cond1 (grid1.coords t) = 1#1)
    (ds : Vec F S10000x128 .f32) (hd : Good1 V c t.val ds) :
    Good1 V c (t.val + 1) ((Rect.unit (s := S10000x128) (k1_off1 (grid1.coords t)) S1000x128.size (Facts₀.k1_off1_inb (grid1.coords t) hc1)).overlay ds
      (k1_pay1 (iblk1 V c 0 t) (iblk1 V c 1 t) (iblk1 V c 2 t) (iblk1 V c 3 t) (iblk1 V c 4 t))) := by
  intro y hy
  have hoff := hoff1 t ht
  have e0 : k1_off1 (grid1.coords t) 0 = 1000 * t.val := by have := congrFun hoff 0; simpa using this
  have e1 : k1_off1 (grid1.coords t) 1 = 0 := by have := congrFun hoff 1; simpa using this
  by_cases hm : y ∈ (Rect.unit (s := S10000x128) (k1_off1 (grid1.coords t)) S1000x128.size (Facts₀.k1_off1_inb (grid1.coords t) hc1)).set
  · obtain ⟨x, rfl⟩ := (Rect.unit (s := S10000x128) (k1_off1 (grid1.coords t)) S1000x128.size (Facts₀.k1_off1_inb (grid1.coords t) hc1)).exists_idx_of_mem hm
    refine (Rect.overlay_emb _ _ _ x).trans ?_
    have hrow := slab_row t ht x ((Rect.unit (s := S10000x128) (k1_off1 (grid1.coords t)) S1000x128.size (Facts₀.k1_off1_inb (grid1.coords t) hc1)).idx x)
      (by show k1_off1 (grid1.coords t) 0 + 1 * (x 0).val = 1000 * t.val + (x 0).val; omega)
      (by show k1_off1 (grid1.coords t) 1 + 1 * (x 1).val = (x 1).val; omega)
    unfold S3
    rw [hrow.1, hrow.2]
  · rw [Rect.overlay_of_not_mem _ _ _ hm]
    refine hd y ?_
    by_contra hge
    refine hm (Rect.mem_set_unit.mpr fun a => ?_)
    have h1 := ValueIdx.idx2_lt1 y
    match a with
    | ⟨0, _⟩ =>
      show k1_off1 (grid1.coords t) 0 ≤ (y 0).val ∧ (y 0).val < k1_off1 (grid1.coords t) 0 + 1000
      omega
    | ⟨1, _⟩ =>
      show k1_off1 (grid1.coords t) 1 ≤ (y 1).val ∧ (y 1).val < k1_off1 (grid1.coords t) 1 + 128
      omega

set_option maxHeartbeats 2000000 in
/-- The body at any point: the inputs' buffers hold their blocks; in the first phase the result window passes through
    untouched and one more slab of the scratch holds the support; in the second phase the scratch, by then the whole
    support, is only read and the result window ends at its payload; the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Phi1 V c (t.val + 1) from rfl,
    show (dat1 V c).Φ t.castSucc = Phi1 V c t.val from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 20 := lt_of_lt_of_eq t.isLt N_1
  unfold Phi1
  by_cases hlt : t.val < 10
  · rw [Dat.leavesExact_idle (dat1 V c) 6 t (idleAt1_6 t hlt) (noFlush1_6 t hlt)]
    have hc1 : k1_cond1 (grid1.coords t) = 1#1 := (hcond1 t).mpr hlt
    have hc2 : ¬ k1_cond2 (grid1.coords t) = 1#1 := fun h => absurd ((hcond2 t).mp h) (by omega)
    iintro ⟨⟨⟨%ds, HS, %hd⟩, HR⟩, Ho, ⟨%d0, H0⟩, ⟨%d1, H1⟩, ⟨%d2, H2⟩, ⟨%d3, H3⟩, ⟨%d4, H4⟩, ⟨%d5, H5⟩, ⟨%d6, H6⟩⟩
    iapply (sound_l2 c Set.univ (grid1.coords t) _ _ _ _ _ _ _ _ _ _ _ _ _ _ _ _ hc1 hc2
      (iblk1 V c 0 t) (iblk1 V c 1 t) (iblk1 V c 2 t) (iblk1 V c 3 t) (iblk1 V c 4 t) (iblk1 V c 5 t) ((dat1 V c).before 6 t d6) ds _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR]
    · isplitl [HS]
      · iexists _; isplitl [HS]; · iexact HS
        ipureintro
        rw [show min (t.val + 1) 10 = t.val + 1 from by omega]
        rw [show min t.val 10 = t.val from by omega] at hd
        exact good_step V c t hlt hc1 ds hd
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have hge : 10 ≤ t.val := by omega
    rw [show (dat1 V c).leavesExact 6 t = owns (c : Thread nD τ) (st1_6 t) fullShare ((dat1 V c).after 6 t) from by
      unfold Dat.leavesExact; rw [liveAt1_6 t hge], after1_6]
    have hc1 : ¬ k1_cond1 (grid1.coords t) = 1#1 := fun h => absurd ((hcond1 t).mp h) (by omega)
    have hc2 : k1_cond2 (grid1.coords t) = 1#1 := (hcond2 t).mpr hge
    iintro ⟨⟨⟨%ds, HS, %hd⟩, HR⟩, Ho, ⟨%d0, H0⟩, ⟨%d1, H1⟩, ⟨%d2, H2⟩, ⟨%d3, H3⟩, ⟨%d4, H4⟩, ⟨%d5, H5⟩, ⟨%d6, H6⟩⟩
    obtain rfl : ds = S3 V c := funext fun y => hd y (by
      rw [show min t.val 10 = 10 from by omega]; have := ValueIdx.idx2_lt0 y; omega)
    iapply (sound_l3 c Set.univ (grid1.coords t) _ _ _ _ _ _ _ _ _ _ _ _ _ _ _ _ hc1 hc2
      (iblk1 V c 0 t) (iblk1 V c 1 t) (iblk1 V c 2 t) (iblk1 V c 3 t) (iblk1 V c 4 t) (iblk1 V c 5 t) (S3 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR]
    · isplitl [HS]
      · iexists (S3 V c); isplitl [HS]; · iexact HS
        ipureintro; exact fun y _ => rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is the region's plain one, -/
theorem hin1 (c : Dev nD) : (Pipeline.ΦA spec1 c : sProp 𝕄) ⊢ (dat1 V c).Φ 0 := by
  rw [show (dat1 V c).Φ 0 = Phi1 V c 0 from rfl]; unfold Phi1
  refine (PhiA_split1 c).trans ?_
  iintro ⟨⟨%d, HA⟩, HR⟩
  isplitl [HA]
  · iexists d; isplitl [HA]; · iexact HA
    ipureintro; intro y hy; exact absurd hy (by simp)
  iexact HR

/-- and after the last point gives it back. -/
theorem hout1 (c : Dev nD) : (dat1 V c).Φ (Fin.last cfg1.N) ⊢ (Pipeline.ΦA spec1 c : sProp 𝕄) := by
  rw [show (dat1 V c).Φ (Fin.last cfg1.N) = Phi1 V c cfg1.N from rfl]; unfold Phi1
  refine .trans ?_ (PhiA_join1 c)
  iintro ⟨⟨%d, HA, -⟩, HR⟩
  isplitl [HA]; · iexists d; iexact HA
  iexact HR

end Region1

end Cert.Kernel.Hand

end
-- ==== Proof.BitsRun.lean ====
import proofs.«108309_g5239860101595_cont_sun_m_358_23_alg».proof.Proof.BitsData0
import proofs.«108309_g5239860101595_cont_sun_m_358_23_alg».proof.Proof.BitsData1
import proofs.«108309_g5239860101595_cont_sun_m_358_23_alg».proof.Proof.Gen.Kernel.Skeleton
import proofs.«108309_g5239860101595_cont_sun_m_358_23_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The run of @main: three reshapes on the host, the layer-1 call, the layers-2+3 call

The buffer contents at each boundary are a fold from the launch memory: the host operations' results, then each
region's arrays at what its write-backs leave. The post of the run says that every unscoped buffer ends at the last of
these valuations; the frame claim and the result are both read off it. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the three reshapes (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at the boundary contents before it, left at the
    ones after it. Its arrays are split out of the unscoped buffers and put back at what the write-backs leave; the
    generator register goes into the kernel's invariant and comes back; nothing is owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary contents before it, left at the
    ones after it. Its arrays are split out of the unscoped buffers and put back at what the write-backs leave; the
    generator register goes into the kernel's invariant and comes back; nothing is owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.BitsFrame.lean ====
import proofs.«108309_g5239860101595_cont_sun_m_358_23_alg».proof.Proof.BitsRun
import proofs.«108309_g5239860101595_cont_sun_m_358_23_alg».proof.Proof.Gen.Kernel.Skeleton
import proofs.«108309_g5239860101595_cont_sun_m_358_23_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The frame: every argument array ends as launched

No host operation and no region writes an argument: a region reads it through an input window, whose array the
write-backs never touch, or bypasses it. So the last boundary valuation at an argument's buffer walks back to the launch
memory, and the run's post gives the frame claim. -/

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 4).trans (((dat1 (V2 m ρ) c).arrAt_in 4 rfl _).trans (A_eq1 (V2 m ρ) c 4))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- THE FRAME at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c)⟩) (run_all m ρ)

end Cert.Kernel.Hand

end
-- ==== Proof.IdealBody0.lean ====
import proofs.«108309_g5239860101595_cont_sun_m_358_23_alg».proof.Proof.Gen.KernelIdeal.Launch
import proofs.«108309_g5239860101595_cont_sun_m_358_23_alg».proof.Proof.Gen.KernelIdeal.Skeleton
import proofs.«108309_g5239860101595_cont_sun_m_358_23_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The layer-1 kernel body on whole staging buffers

The body stores four things: the adjacency block narrowed (window 5), the clamped convolution of the block against the
support kept in scratch (window 6), that block's product with the second weight (window 7) and — at the first grid point
only — the support of the first layer into the scratch, which every later point reads back unchanged. -/

/-- Two zero offsets, however spelt. -/
theorem hz2 : (![0, 0] : Fin 2 → Nat) = fun _ => 0 := by
  funext a; match a with | ⟨0, _⟩ => rfl | ⟨1, _⟩ => rfl

/-- One store through the whole-buffer rectangle leaves its payload, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- A load of a whole buffer reads its contents, and a whole load after one whole store reads the stored value. -/
macro "read_back" : tactic => `(tactic| simp only [View.readAt_eq_ld, Memref.IsWhole.read_unread, View.readCov_unit_zero (S := S10000x128) _ hz2,
  View.ld_unit_zero (S := S400x10000) hz2, View.ld_unit_zero (S := S10000x128) hz2, View.ld_unit_zero (S := S128x128) hz2,
  View.ld_unit_zero (S := S1x128) hz2, View.ld_unit_zero (S := S400x128) hz2, View.ld_unit_zero (S := S1000x10000) hz2,
  View.ld_unit_zero (S := S1000x128) hz2])

/-- The body's one branch condition: "this is grid point 0", as the kernel computes it. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- AT THE FIRST POINT: from the five input buffers at their contents and the four written buffers at anything, the body
    leaves the scratch at the first layer's support and the three output buffers at their payloads over that support. -/
theorem sound_first (c : Dev nD) (E : Set ℕ) (i : grid0.Coords) (hc : cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S400x10000 .bf16) (harg6 : arg6.IsWhole) (arg7 : Memref sig .tc .vmem S400x128 .bf16) (harg7 : arg7.IsWhole) (arg8 : Memref sig .tc .vmem S400x128 .bf16) (harg8 : arg8.IsWhole) (arg9 : Memref sig .tc .vmem S10000x128 .bf16) (harg9 : arg9.IsWhole)
    (a : Vec F S400x10000 .f32) (x : Vec F S10000x128 .f32) (w1 : Vec F S128x128 .f32) (b : Vec F S1x128 .f32) (w2 : Vec F S128x128 .f32) (K : PUnit → sProp 𝕄) :
    iprop(owns (c : Thread nD τ) arg1 fullShare a ∗ owns (c : Thread nD τ) arg2 fullShare x ∗ owns (c : Thread nD τ) arg3 fullShare w1
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare a ∗ owns (c : Thread nD τ) arg2 fullShare x ∗ owns (c : Thread nD τ) arg3 fullShare w1
            ∗ owns (c : Thread nD τ) arg4 fullShare b ∗ owns (c : Thread nD τ) arg5 fullShare w2
            ∗ owns (c : Thread nD τ) arg6 fullShare (k0_pay2 a)
            ∗ owns (c : Thread nD τ) arg7 fullShare (k0_pay3 a (k0_pay1 x w1) b)
            ∗ owns (c : Thread nD τ) arg8 fullShare (k0_pay4 a (k0_pay1 x w1) b w2)
            ∗ owns (c : Thread nD τ) arg9 fullShare (k0_pay1 x w1)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    try sl_unfold_run_names
    refine (read_store_whole _ _ hz2 _ _).trans ?_
    read_back
  isplitl [H7]
  · iexists _; isplitr
    swap; · iexact H7
    ipureintro
    try sl_unfold_run_names
    refine (read_store_whole _ _ hz2 _ _).trans ?_
    read_back
  isplitl [H8]
  · iexists _; isplitr
    swap; · iexact H8
    ipureintro
    try sl_unfold_run_names
    refine (read_store_whole _ _ hz2 _ _).trans ?_
    read_back
  iexists _; isplitr
  swap; · iexact H9
  ipureintro
  try sl_unfold_run_names
  refine (read_store_whole _ _ hz2 _ _).trans ?_
  read_back

set_option maxHeartbeats 1000000 in
/-- AT EVERY LATER POINT: the scratch, at contents `s`, is only read; the three output buffers end at their payloads over `s`. -/
theorem sound_rest (c : Dev nD) (E : Set ℕ) (i : grid0.Coords) (hc : ¬cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S400x10000 .bf16) (harg6 : arg6.IsWhole) (arg7 : Memref sig .tc .vmem S400x128 .bf16) (harg7 : arg7.IsWhole) (arg8 : Memref sig .tc .vmem S400x128 .bf16) (harg8 : arg8.IsWhole) (arg9 : Memref sig .tc .vmem S10000x128 .bf16) (harg9 : arg9.IsWhole)
    (a : Vec F S400x10000 .f32) (x : Vec F S10000x128 .f32) (w1 : Vec F S128x128 .f32) (b : Vec F S1x128 .f32) (w2 : Vec F S128x128 .f32)
    (s : Vec F S10000x128 .bf16) (K : PUnit → sProp 𝕄) :
    iprop(owns (c : Thread nD τ) arg1 fullShare a ∗ owns (c : Thread nD τ) arg2 fullShare x ∗ owns (c : Thread nD τ) arg3 fullShare w1
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s
        ∗ (iprop(owns (c : Thread nD τ) arg1 fullShare a ∗ owns (c : Thread nD τ) arg2 fullShare x ∗ owns (c : Thread nD τ) arg3 fullShare w1
            ∗ owns (c : Thread nD τ) arg4 fullShare b ∗ owns (c : Thread nD τ) arg5 fullShare w2
            ∗ owns (c : Thread nD τ) arg6 fullShare (k0_pay2 a)
            ∗ owns (c : Thread nD τ) arg7 fullShare (k0_pay3 a s b)
            ∗ owns (c : Thread nD τ) arg8 fullShare (k0_pay4 a s b w2)
            ∗ owns (c : Thread nD τ) arg9 fullShare s) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg9.eq_unread hf9
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    try sl_unfold_run_names
    refine (read_store_whole _ _ hz2 _ _).trans ?_
    read_back
  isplitl [H7]
  · iexists _; isplitr
    swap; · iexact H7
    ipureintro
    try sl_unfold_run_names
    refine (read_store_whole _ _ hz2 _ _).trans ?_
    read_back
  isplitl [H8]
  · iexists _; isplitr
    swap; · iexact H8
    ipureintro
    try sl_unfold_run_names
    refine (read_store_whole _ _ hz2 _ _).trans ?_
    read_back
  iexists _; isplitr; · ipureintro; exact harg9.read_unread _
  iexact H9

end Cert.KernelIdeal.Hand

end
-- ==== Proof.IdealData0.lean ====
import proofs.«108309_g5239860101595_cont_sun_m_358_23_alg».proof.Proof.IdealBody0
import proofs.«108309_g5239860101595_cont_sun_m_358_23_alg».proof.Proof.Gen.KernelIdeal.Skeleton
import proofs.«108309_g5239860101595_cont_sun_m_358_23_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # Region 0 (the layer-1 call): the windows' blocks, the scratch invariant and the body obligation

`V` is what the TensorCore's buffers hold when the region is entered. The scratch holds, from the first point's end
on, the first layer's support computed from the whole feature and weight arrays; before that anything. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev t₀ : Fin cfg0.N := ⟨0, by decide⟩

/-- The kernel's scratch operand: a whole scoped buffer of its own. -/
abbrev scM0 : Memref sig .tc .vmem S10000x128 .bf16 := Memref.whole cc0_scratch0

/-- The first layer's support as the first point computes it from the whole feature and weight arrays. -/
def S1 (c : Dev nD) : Vec F S10000x128 .bf16 := k0_pay1 (iblk0 V c 1 t₀) (iblk0 V c 2 t₀)

/-- What the kernel's invariant holds besides the scratch: whatever, with the scratch at any contents, makes the
    region's plain invariant (the other scoped buffers and the generator register). -/
def Rest0 (c : Dev nD) : sProp 𝕄 := iprop((∃ d, owns (c : Thread nD τ) scM0 fullShare d) -∗ Pipeline.ΦA spec0 c)

/-- The invariant before point `n`: the scratch at some contents — the first layer's support once a point has run — beside the rest. -/
def Phi0 (c : Dev nD) (n : ℕ) : sProp 𝕄 :=
  iprop((∃ d, owns (c : Thread nD τ) scM0 fullShare d ∗ ⌜n ≠ 0 → d = S1 V c⌝) ∗ Rest0 c)

/-- The region's plain invariant splits off the scratch … -/
theorem PhiA_split0 (c : Dev nD) : (Pipeline.ΦA spec0 c : sProp 𝕄) ⊢ iprop((∃ d, owns (c : Thread nD τ) scM0 fullShare d) ∗ Rest0 c) := by
  have e : (Pipeline.ΦA spec0 c : sProp 𝕄) ⊢ iprop((∃ d, owns (c : Thread nD τ) scM0 fullShare d) ∗ ((∃ d, owns (c : Thread nD τ) scM0 fullShare d) -∗ Pipeline.ΦA spec0 c)) := by
    unfold Pipeline.ΦA; rw [scopedRest0_eq]; simp only [scM0, owns_whole]
    iintro ⟨⟨HA, HR⟩, HP⟩
    isplitl [HA]; · iexact HA
    iintro HA
    isplitr [HP]
    · isplitl [HA]; · iexact HA
      iexact HR
    iexact HP
  exact e

/-- … and is put back from it. -/
theorem PhiA_join0 (c : Dev nD) : iprop((∃ d, owns (c : Thread nD τ) scM0 fullShare d) ∗ Rest0 c) ⊢ (Pipeline.ΦA spec0 c : sProp 𝕄) := by
  unfold Rest0
  iintro ⟨HA, HR⟩
  iapply HR; iexact HA

/-- The proof data of pipeline 0 on core `c`: the arrays as the region finds them; after the body each input's buffer at
    its block, each output's at its payload over the input blocks and the support; the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t)
    | ⟨6, _⟩ => k0_pay3 (iblk0 V c 0 t) (S1 V c) (iblk0 V c 3 t)
    | ⟨7, _⟩ => k0_pay4 (iblk0 V c 0 t) (S1 V c) (iblk0 V c 3 t) (iblk0 V c 4 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 0 t) := by dsimp only [dat0]
theorem after0_6 (c : Dev nD) (t : Fin cfg0.N) : (dat0 V c).after 6 t = k0_pay3 (iblk0 V c 0 t) (S1 V c) (iblk0 V c 3 t) := by dsimp only [dat0]
theorem after0_7 (c : Dev nD) (t : Fin cfg0.N) : (dat0 V c).after 7 t = k0_pay4 (iblk0 V c 0 t) (S1 V c) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks; at the first point the scratch is filled with the
    support, at every later one it is found holding it; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = Phi0 V c (t.val + 1) from rfl,
    show (dat0 V c).Φ t.castSucc = Phi0 V c t.val from rfl,
    show (dat0 V c).owesAt () t.succ = (dat0 V c).owesAt () t.castSucc from rfl,
    after0_0, after0_1, after0_2, after0_3, after0_4, after0_5, after0_6, after0_7]
  unfold Phi0
  iintro ⟨⟨⟨%ds, HS, %hd⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hz : t.val = 0
  · have ht : t = t₀ := Fin.ext hz
    subst ht
    iapply (sound_first c Set.univ (grid0.coords t₀) ((hcond0 t₀).mpr rfl) _ _ _ _ _ _ _ _ _ _ _ _ _ _ _ _ _ _
      (iblk0 V c 0 t₀) (iblk0 V c 1 t₀) (iblk0 V c 2 t₀) (iblk0 V c 3 t₀) (iblk0 V c 4 t₀) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexists _; iexact HS
    iintro ⟨H0, H1, H2, H3, H4, H5, H6, H7, HS⟩
    isplitl [HS HR]
    · isplitl [HS]
      · iexists (S1 V c); isplitl [HS]; · iexact HS
        ipureintro; exact fun _ => rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain rfl := hd hz
    iapply (sound_rest c Set.univ (grid0.coords t) (fun h => hz ((hcond0 t).mp h)) _ _ _ _ _ _ _ _ _ _ _ _ _ _ _ _ _ _
      (iblk0 V c 0 t) (iblk0 V c 1 t) (iblk0 V c 2 t) (iblk0 V c 3 t) (iblk0 V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR]
    · isplitl [HS]
      · iexists (S1 V c); isplitl [HS]; · iexact HS
        ipureintro; exact fun _ => rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point is the region's plain one, -/
theorem hin0 (c : Dev nD) : (Pipeline.ΦA spec0 c : sProp 𝕄) ⊢ (dat0 V c).Φ 0 := by
  rw [show (dat0 V c).Φ 0 = Phi0 V c 0 from rfl]; unfold Phi0
  refine (PhiA_split0 c).trans ?_
  iintro ⟨⟨%d, HA⟩, HR⟩
  isplitl [HA]
  · iexists d; isplitl [HA]; · iexact HA
    ipureintro; exact fun h => absurd rfl h
  iexact HR

/-- and after the last point gives it back. -/
theorem hout0 (c : Dev nD) : (dat0 V c).Φ (Fin.last cfg0.N) ⊢ (Pipeline.ΦA spec0 c : sProp 𝕄) := by
  rw [show (dat0 V c).Φ (Fin.last cfg0.N) = Phi0 V c cfg0.N from rfl]; unfold Phi0
  refine .trans ?_ (PhiA_join0 c)
  iintro ⟨⟨%d, HA, -⟩, HR⟩
  isplitl [HA]; · iexists d; iexact HA
  iexact HR

end Region0

end Cert.KernelIdeal.Hand

end
-- ==== Proof.IdealBody1.lean ====
import proofs.«108309_g5239860101595_cont_sun_m_358_23_alg».proof.Proof.IdealBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The layers-2-and-3 kernel body on whole staging buffers

The body has two exclusive branches over its twenty grid points. At the first ten it computes one block of 1000 rows of
the second hidden layer (the clamped convolution of the adjacency block against the second support, plus the first
layer's block), multiplies it by the third weight, and stores the product into the matching slab of the scratch; the
output buffer is not touched. At the last ten it reads the whole scratch — by then the third support — and stores the
adjacency block times it, plus the third bias, into the output buffer; the scratch is only read. -/

/-- The first branch is taken at the first ten grid points: there the layer-2 slab is written. -/
theorem hcond1 : ∀ t : Fin cfg1.N, k1_cond1 (grid1.coords t) = 1#1 ↔ t.val < 10 :=
  (by decide +kernel : ∀ t : Fin grid1.N, k1_cond1 (grid1.coords t) = 1#1 ↔ t.val < 10)

/-- The second branch is taken at the last ten grid points: there the output block is written. -/
theorem hcond2 : ∀ t : Fin cfg1.N, k1_cond2 (grid1.coords t) = 1#1 ↔ 10 ≤ t.val :=
  (by decide +kernel : ∀ t : Fin grid1.N, k1_cond2 (grid1.coords t) = 1#1 ↔ 10 ≤ t.val)

/-- At the first ten grid points the slab written starts at row 1000·t, column 0. -/
theorem hoff1 : ∀ t : Fin cfg1.N, t.val < 10 → k1_off1 (grid1.coords t) = ![1000 * t.val, 0] :=
  (by decide +kernel : ∀ t : Fin grid1.N, t.val < 10 → k1_off1 (grid1.coords t) = ![1000 * t.val, 0])

/-- One store through a rectangle of a whole buffer at contents `X` leaves `X` with the payload laid over it on the
    rectangle: under the rectangle the store's payload is read, elsewhere the buffer is as it was. -/
theorem read_store_overlay {κ : Kind} {sp : Space} {S : Shape} {e : EltTy} {m : Memref sig κ sp S e} (hm : m.IsWhole)
    (X : S.Idx → Elt F e) (R : Rect S) (w : R.shape.Idx → Elt F e) :
    m.view.read (Elt F) (m.view.writes (Elt F) (hm.unread X) [(⟨R, w⟩ : View.Piece (Elt F) S e)]) = R.overlay X w := by
  funext y
  by_cases hy : y ∈ R.set
  · obtain ⟨x, rfl⟩ : ∃ x, R.emb x = y := R.exists_idx_of_mem hy
    rw [View.read_writes_cons_emb, Rect.overlay_emb]
  · rw [View.read_writes_apply_of_forall_not_mem _ _ y _ (fun p hp => by rw [List.mem_singleton] at hp; subst hp; exact hy),
      Rect.overlay_of_not_mem _ _ _ hy, hm.read_unread]

set_option maxHeartbeats 1000000 in
/-- AT THE FIRST TEN POINTS: the output buffer is untouched; the scratch keeps its contents `sc` everywhere except on
    the slab of 1000 rows at this point's offset, which ends at the second hidden layer's block times the third weight. -/
theorem sound_l2 (c : Dev nD) (E : Set ℕ) (i : grid1.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1000x128 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S10000x128 .f32) (harg8 : arg8.IsWhole)
    (hc1 : k1_cond1 i = 1#1) (hc2 : ¬ k1_cond2 i = 1#1)
    (a : Vec F S1000x10000 .bf16) (s2 : Vec F S10000x128 .bf16) (b2 : Vec F S1x128 .f32) (h1 : Vec F S1000x128 .bf16) (w3 : Vec F S128x128 .f32) (b3 : Vec F S1x128 .f32)
    (o : Vec F S1000x128 .f32) (sc : Vec F S10000x128 .f32) (K : PUnit → sProp 𝕄) :
    iprop(owns (c : Thread nD τ) arg1 fullShare a ∗ owns (c : Thread nD τ) arg2 fullShare s2 ∗ owns (c : Thread nD τ) arg3 fullShare b2
        ∗ owns (c : Thread nD τ) arg4 fullShare h1 ∗ owns (c : Thread nD τ) arg5 fullShare w3 ∗ owns (c : Thread nD τ) arg6 fullShare b3
        ∗ owns (c : Thread nD τ) arg7 fullShare o ∗ owns (c : Thread nD τ) arg8 fullShare sc
        ∗ (iprop(owns (c : Thread nD τ) arg1 fullShare a ∗ owns (c : Thread nD τ) arg2 fullShare s2 ∗ owns (c : Thread nD τ) arg3 fullShare b2
        ∗ owns (c : Thread nD τ) arg4 fullShare h1 ∗ owns (c : Thread nD τ) arg5 fullShare w3 ∗ owns (c : Thread nD τ) arg6 fullShare b3
            ∗ owns (c : Thread nD τ) arg7 fullShare o
            ∗ owns (c : Thread nD τ) arg8 fullShare ((Rect.unit (s := S10000x128) (k1_off1 i) S1000x128.size (Facts₀.k1_off1_inb i hc1)).overlay sc (k1_pay1 a s2 b2 h1 w3))) -∗ K ⟨⟩))
      ⊢ wp frame (wpE (defs₀ (F := F)) Variants.none c none) E (cc1__layer23_kernel i arg1 harg1 arg2 harg2 arg3 harg3 arg4 harg4 arg5 harg5 arg6 harg6 arg7 harg7 arg8 harg8) K := by
  simp only [cc1__layer23_kernel_eq_skeleton]; unfold cc1__layer23_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  try sl_unfold_run_names
  refine (read_store_overlay harg8 sc _ _).trans ?_
  read_back

set_option maxHeartbeats 1000000 in
/-- AT THE LAST TEN POINTS: the scratch, at contents `sc`, is only read (whole); the output buffer ends at the
    adjacency block times the scratch, plus the third bias. Nothing else changes. -/
theorem sound_l3 (c : Dev nD) (E : Set ℕ) (i : grid1.Coords) (arg1 : Memref sig .tc .vmem S1000x10000 .bf16) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1000x128 .bf16) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S10000x128 .f32) (harg8 : arg8.IsWhole)
    (hc1 : ¬ k1_cond1 i = 1#1) (hc2 : k1_cond2 i = 1#1)
    (a : Vec F S1000x10000 .bf16) (s2 : Vec F S10000x128 .bf16) (b2 : Vec F S1x128 .f32) (h1 : Vec F S1000x128 .bf16) (w3 : Vec F S128x128 .f32) (b3 : Vec F S1x128 .f32)
    (sc : Vec F S10000x128 .f32) (K : PUnit → sProp 𝕄) :
    iprop(owns (c : Thread nD τ) arg1 fullShare a ∗ owns (c : Thread nD τ) arg2 fullShare s2 ∗ owns (c : Thread nD τ) arg3 fullShare b2
        ∗ owns (c : Thread nD τ) arg4 fullShare h1 ∗ owns (c : Thread nD τ) arg5 fullShare w3 ∗ owns (c : Thread nD τ) arg6 fullShare b3
        ∗ (∃ d, owns (c : Thread nD τ) arg7 fullShare d) ∗ owns (c : Thread nD τ) arg8 fullShare sc
        ∗ (iprop(owns (c : Thread nD τ) arg1 fullShare a ∗ owns (c : Thread nD τ) arg2 fullShare s2 ∗ owns (c : Thread nD τ) arg3 fullShare b2
        ∗ owns (c : Thread nD τ) arg4 fullShare h1 ∗ owns (c : Thread nD τ) arg5 fullShare w3 ∗ owns (c : Thread nD τ) arg6 fullShare b3
            ∗ owns (c : Thread nD τ) arg7 fullShare (k1_pay2 a sc b3) ∗ owns (c : Thread nD τ) arg8 fullShare sc) -∗ K ⟨⟩))
      ⊢ wp frame (wpE (defs₀ (F := F)) Variants.none c none) E (cc1__layer23_kernel i arg1 harg1 arg2 harg2 arg3 harg3 arg4 harg4 arg5 harg5 arg6 harg6 arg7 harg7 arg8 harg8) K := by
  simp only [cc1__layer23_kernel_eq_skeleton]; unfold cc1__layer23_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    try sl_unfold_run_names
    refine (read_store_whole _ _ hz2 _ _).trans ?_
    read_back
  iexists _; isplitr; · ipureintro; exact harg8.read_unread _
  iexact H8

end Cert.KernelIdeal.Hand

end
-- ==== Proof.IdealData1.lean ====
import proofs.«108309_g5239860101595_cont_sun_m_358_23_alg».proof.Proof.IdealBody1
import proofs.«108309_g5239860101595_cont_sun_m_358_23_alg».proof.Proof.Gen.KernelIdeal.Skeleton
import proofs.«108309_g5239860101595_cont_sun_m_358_23_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # Region 1 (the layers-2+3 call): the windows' blocks, the scratch invariant and the body obligation

The first ten grid points each write one 1000-row slab of the third layer's support into the scratch; the last ten read
the whole scratch and write one block of the result each. Before point `n` the scratch therefore holds the support on
its first `1000 · min n 10` rows, and anything below them. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The kernel's scratch operand: a whole scoped buffer of its own. -/
abbrev scM1 : Memref sig .tc .vmem S10000x128 .f32 := Memref.whole cc1_scratch0

/-- The grid point whose slab holds row `(y 0)` of the scratch: the row's thousand. -/
def slabPt (y : S10000x128.Idx) : Fin cfg1.N :=
  ⟨(y 0).val / 1000, lt_of_lt_of_le (by have := ValueIdx.idx2_lt0 y; omega : (y 0).val / 1000 < 10) (by decide : 10 ≤ cfg1.N)⟩

/-- Where in that slab: the row's remainder, the same column. -/
def slabIx (y : S10000x128.Idx) : S1000x128.Idx :=
  ValueIdx.ix2 (⟨(y 0).val % 1000, Nat.mod_lt _ (by decide)⟩ : Fin 1000) (⟨(y 1).val, ValueIdx.idx2_lt1 y⟩ : Fin 128)

/-- The third layer's support as the first ten points compute it, slab by slab, from the windows' blocks. -/
def S3 (c : Dev nD) : Vec F S10000x128 .f32 := fun y =>
  k1_pay1 (iblk1 V c 0 (slabPt y)) (iblk1 V c 1 (slabPt y)) (iblk1 V c 2 (slabPt y)) (iblk1 V c 3 (slabPt y)) (iblk1 V c 4 (slabPt y)) (slabIx y)

/-- The scratch agrees with the support on its first `1000 · n` rows. -/
def Good1 (c : Dev nD) (n : ℕ) (d : Vec F S10000x128 .f32) : Prop :=
  ∀ y : S10000x128.Idx, (y 0).val < 1000 * n → d y = S3 V c y

/-- What the kernel's invariant holds besides the scratch. -/
def Rest1 (c : Dev nD) : sProp 𝕄 := iprop((∃ d, owns (c : Thread nD τ) scM1 fullShare d) -∗ Pipeline.ΦA spec1 c)

/-- The invariant before point `n`. -/
def Phi1 (c : Dev nD) (n : ℕ) : sProp 𝕄 :=
  iprop((∃ d, owns (c : Thread nD τ) scM1 fullShare d ∗ ⌜Good1 V c (min n 10) d⌝) ∗ Rest1 c)

/-- The core's scoped buffers that region 1 does not stage, the scratch first. -/
theorem scopedRest1_eq' {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f) ∗ (∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg2_0), ((c : Thread nD τ).loc cc0_stg2_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc0_stg5_0), ((c : Thread nD τ).loc cc0_stg5_0) ↦{fullShare} f) ∗ (∃ f : Buf Val ((c : Thread nD τ).loc cc0_stg5_1), ((c : Thread nD τ).loc cc0_stg5_1) ↦{fullShare} f) ∗ (∃ f : Buf Val ((c : Thread nD τ).loc cc0_stg6_0), ((c : Thread nD τ).loc cc0_stg6_0) ↦{fullShare} f) ∗ (∃ f : Buf Val ((c : Thread nD τ).loc cc0_stg6_1), ((c : Thread nD τ).loc cc0_stg6_1) ↦{fullShare} f) ∗ (∃ f : Buf Val ((c : Thread nD τ).loc cc0_stg7_0), ((c : Thread nD τ).loc cc0_stg7_0) ↦{fullShare} f) ∗ (∃ f : Buf Val ((c : Thread nD τ).loc cc0_stg7_1), ((c : Thread nD τ).loc cc0_stg7_1) ↦{fullShare} f) ∗ (∃ f : Buf Val ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg2_0, cc0_stg3_0, cc0_stg4_0, cc0_stg5_0, cc0_stg5_1, cc0_stg6_0, cc0_stg6_1, cc0_stg7_0, cc0_stg7_1, cc0_scratch0] (by decide) (by decide)

/-- The region's plain invariant splits off the scratch … -/
theorem PhiA_split1 (c : Dev nD) : (Pipeline.ΦA spec1 c : sProp 𝕄) ⊢ iprop((∃ d, owns (c : Thread nD τ) scM1 fullShare d) ∗ Rest1 c) := by
  have e : (Pipeline.ΦA spec1 c : sProp 𝕄) ⊢ iprop((∃ d, owns (c : Thread nD τ) scM1 fullShare d) ∗ ((∃ d, owns (c : Thread nD τ) scM1 fullShare d) -∗ Pipeline.ΦA spec1 c)) := by
    unfold Pipeline.ΦA; rw [scopedRest1_eq']; simp only [scM1, owns_whole]
    iintro ⟨⟨HA, HR⟩, HP⟩
    isplitl [HA]; · iexact HA
    iintro HA
    isplitr [HP]
    · isplitl [HA]; · iexact HA
      iexact HR
    iexact HP
  exact e

/-- … and is put back from it. -/
theorem PhiA_join1 (c : Dev nD) : iprop((∃ d, owns (c : Thread nD τ) scM1 fullShare d) ∗ Rest1 c) ⊢ (Pipeline.ΦA spec1 c : sProp 𝕄) := by
  unfold Rest1
  iintro ⟨HA, HR⟩
  iapply HR; iexact HA

/-- The proof data of pipeline 1 on core `c`. The result window's entry at a point of the first phase, where the window is
    idle and not written back, is a placeholder nothing reads. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (S3 V c) (iblk1 V c 5 t)
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay2 (iblk1 V c 0 t) (S3 V c) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- In the first phase the result window is idle and not written back; in the second it is live. -/
theorem idleAt1_6 : ∀ t : Fin cfg1.N, t.val < 10 → cfg1.idle 6 (grid1.coords t) = true := by decide +kernel
theorem noFlush1_6 : ∀ t : Fin cfg1.N, t.val < 10 → (cfg1.win 6).flush t = false := by decide +kernel
theorem liveAt1_6 : ∀ t : Fin cfg1.N, 10 ≤ t.val → cfg1.idle 6 (grid1.coords t) = false := by decide +kernel

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- A row of the slab written at point `t` belongs to that point, at its remainder. -/
theorem slab_row (t : Fin cfg1.N) (ht : t.val < 10) (x : S1000x128.Idx) (y : S10000x128.Idx)
    (h0 : (y 0).val = 1000 * t.val + (x 0).val) (h1 : (y 1).val = (x 1).val) : slabPt y = t ∧ slabIx y = x := by
  have hx := ValueIdx.idx2_lt0 x
  refine ⟨Fin.ext ?_, ?_⟩
  · show (y 0).val / 1000 = t.val
    rw [h0]; omega
  · funext a
    match a with
    | ⟨0, _⟩ => exact Fin.ext (by show (y 0).val % 1000 = (x 0).val; rw [h0]; omega)
    | ⟨1, _⟩ => exact Fin.ext (by show (y 1).val = (x 1).val; exact h1)

/-- The slab written at point `t` of the first phase extends the rows on which the scratch holds the support. -/
theorem good_step (c : Dev nD) (t : Fin cfg1.N) (ht : t.val < 10) (hc1 : k1_cond1 (grid1.coords t) = 1#1)
    (ds : Vec F S10000x128 .f32) (hd : Good1 V c t.val ds) :
    Good1 V c (t.val + 1) ((Rect.unit (s := S10000x128) (k1_off1 (grid1.coords t)) S1000x128.size (Facts₀.k1_off1_inb (grid1.coords t) hc1)).overlay ds
      (k1_pay1 (iblk1 V c 0 t) (iblk1 V c 1 t) (iblk1 V c 2 t) (iblk1 V c 3 t) (iblk1 V c 4 t))) := by
  intro y hy
  have hoff := hoff1 t ht
  have e0 : k1_off1 (grid1.coords t) 0 = 1000 * t.val := by have := congrFun hoff 0; simpa using this
  have e1 : k1_off1 (grid1.coords t) 1 = 0 := by have := congrFun hoff 1; simpa using this
  by_cases hm : y ∈ (Rect.unit (s := S10000x128) (k1_off1 (grid1.coords t)) S1000x128.size (Facts₀.k1_off1_inb (grid1.coords t) hc1)).set
  · obtain ⟨x, rfl⟩ := (Rect.unit (s := S10000x128) (k1_off1 (grid1.coords t)) S1000x128.size (Facts₀.k1_off1_inb (grid1.coords t) hc1)).exists_idx_of_mem hm
    refine (Rect.overlay_emb _ _ _ x).trans ?_
    have hrow := slab_row t ht x ((Rect.unit (s := S10000x128) (k1_off1 (grid1.coords t)) S1000x128.size (Facts₀.k1_off1_inb (grid1.coords t) hc1)).idx x)
      (by show k1_off1 (grid1.coords t) 0 + 1 * (x 0).val = 1000 * t.val + (x 0).val; omega)
      (by show k1_off1 (grid1.coords t) 1 + 1 * (x 1).val = (x 1).val; omega)
    unfold S3
    rw [hrow.1, hrow.2]
  · rw [Rect.overlay_of_not_mem _ _ _ hm]
    refine hd y ?_
    by_contra hge
    refine hm (Rect.mem_set_unit.mpr fun a => ?_)
    have h1 := ValueIdx.idx2_lt1 y
    match a with
    | ⟨0, _⟩ =>
      show k1_off1 (grid1.coords t) 0 ≤ (y 0).val ∧ (y 0).val < k1_off1 (grid1.coords t) 0 + 1000
      omega
    | ⟨1, _⟩ =>
      show k1_off1 (grid1.coords t) 1 ≤ (y 1).val ∧ (y 1).val < k1_off1 (grid1.coords t) 1 + 128
      omega

set_option maxHeartbeats 2000000 in
/-- The body at any point: the inputs' buffers hold their blocks; in the first phase the result window passes through
    untouched and one more slab of the scratch holds the support; in the second phase the scratch, by then the whole
    support, is only read and the result window ends at its payload; the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Phi1 V c (t.val + 1) from rfl,
    show (dat1 V c).Φ t.castSucc = Phi1 V c t.val from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 20 := lt_of_lt_of_eq t.isLt N_1
  unfold Phi1
  by_cases hlt : t.val < 10
  · rw [Dat.leavesExact_idle (dat1 V c) 6 t (idleAt1_6 t hlt) (noFlush1_6 t hlt)]
    have hc1 : k1_cond1 (grid1.coords t) = 1#1 := (hcond1 t).mpr hlt
    have hc2 : ¬ k1_cond2 (grid1.coords t) = 1#1 := fun h => absurd ((hcond2 t).mp h) (by omega)
    iintro ⟨⟨⟨%ds, HS, %hd⟩, HR⟩, Ho, ⟨%d0, H0⟩, ⟨%d1, H1⟩, ⟨%d2, H2⟩, ⟨%d3, H3⟩, ⟨%d4, H4⟩, ⟨%d5, H5⟩, ⟨%d6, H6⟩⟩
    iapply (sound_l2 c Set.univ (grid1.coords t) _ _ _ _ _ _ _ _ _ _ _ _ _ _ _ _ hc1 hc2
      (iblk1 V c 0 t) (iblk1 V c 1 t) (iblk1 V c 2 t) (iblk1 V c 3 t) (iblk1 V c 4 t) (iblk1 V c 5 t) ((dat1 V c).before 6 t d6) ds _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR]
    · isplitl [HS]
      · iexists _; isplitl [HS]; · iexact HS
        ipureintro
        rw [show min (t.val + 1) 10 = t.val + 1 from by omega]
        rw [show min t.val 10 = t.val from by omega] at hd
        exact good_step V c t hlt hc1 ds hd
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have hge : 10 ≤ t.val := by omega
    rw [show (dat1 V c).leavesExact 6 t = owns (c : Thread nD τ) (st1_6 t) fullShare ((dat1 V c).after 6 t) from by
      unfold Dat.leavesExact; rw [liveAt1_6 t hge], after1_6]
    have hc1 : ¬ k1_cond1 (grid1.coords t) = 1#1 := fun h => absurd ((hcond1 t).mp h) (by omega)
    have hc2 : k1_cond2 (grid1.coords t) = 1#1 := (hcond2 t).mpr hge
    iintro ⟨⟨⟨%ds, HS, %hd⟩, HR⟩, Ho, ⟨%d0, H0⟩, ⟨%d1, H1⟩, ⟨%d2, H2⟩, ⟨%d3, H3⟩, ⟨%d4, H4⟩, ⟨%d5, H5⟩, ⟨%d6, H6⟩⟩
    obtain rfl : ds = S3 V c := funext fun y => hd y (by
      rw [show min t.val 10 = 10 from by omega]; have := ValueIdx.idx2_lt0 y; omega)
    iapply (sound_l3 c Set.univ (grid1.coords t) _ _ _ _ _ _ _ _ _ _ _ _ _ _ _ _ hc1 hc2
      (iblk1 V c 0 t) (iblk1 V c 1 t) (iblk1 V c 2 t) (iblk1 V c 3 t) (iblk1 V c 4 t) (iblk1 V c 5 t) (S3 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR]
    · isplitl [HS]
      · iexists (S3 V c); isplitl [HS]; · iexact HS
        ipureintro; exact fun y _ => rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is the region's plain one, -/
theorem hin1 (c : Dev nD) : (Pipeline.ΦA spec1 c : sProp 𝕄) ⊢ (dat1 V c).Φ 0 := by
  rw [show (dat1 V c).Φ 0 = Phi1 V c 0 from rfl]; unfold Phi1
  refine (PhiA_split1 c).trans ?_
  iintro ⟨⟨%d, HA⟩, HR⟩
  isplitl [HA]
  · iexists d; isplitl [HA]; · iexact HA
    ipureintro; intro y hy; exact absurd hy (by simp)
  iexact HR

/-- and after the last point gives it back. -/
theorem hout1 (c : Dev nD) : (dat1 V c).Φ (Fin.last cfg1.N) ⊢ (Pipeline.ΦA spec1 c : sProp 𝕄) := by
  rw [show (dat1 V c).Φ (Fin.last cfg1.N) = Phi1 V c cfg1.N from rfl]; unfold Phi1
  refine .trans ?_ (PhiA_join1 c)
  iintro ⟨⟨%d, HA, -⟩, HR⟩
  isplitl [HA]; · iexists d; iexact HA
  iexact HR

end Region1

end Cert.KernelIdeal.Hand

end
-- ==== Proof.IdealRun.lean ====
import proofs.«108309_g5239860101595_cont_sun_m_358_23_alg».proof.Proof.IdealData0
import proofs.«108309_g5239860101595_cont_sun_m_358_23_alg».proof.Proof.IdealData1
import proofs.«108309_g5239860101595_cont_sun_m_358_23_alg».proof.Proof.Gen.KernelIdeal.Skeleton
import proofs.«108309_g5239860101595_cont_sun_m_358_23_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The run of @main: three reshapes on the host, the layer-1 call, the layers-2+3 call

The buffer contents at each boundary are a fold from the launch memory: the host operations' results, then each
region's arrays at what its write-backs leave. The post of the run says that every unscoped buffer ends at the last of
these valuations; the frame claim and the result are both read off it. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the three reshapes (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at the boundary contents before it, left at the
    ones after it. Its arrays are split out of the unscoped buffers and put back at what the write-backs leave; the
    generator register goes into the kernel's invariant and comes back; nothing is owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary contents before it, left at the
    ones after it. Its arrays are split out of the unscoped buffers and put back at what the write-backs leave; the
    generator register goes into the kernel's invariant and comes back; nothing is owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.IdealFrame.lean ====
import proofs.«108309_g5239860101595_cont_sun_m_358_23_alg».proof.Proof.IdealRun
import proofs.«108309_g5239860101595_cont_sun_m_358_23_alg».proof.Proof.Gen.KernelIdeal.Skeleton
import proofs.«108309_g5239860101595_cont_sun_m_358_23_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The frame: every argument array ends as launched

No host operation and no region writes an argument: a region reads it through an input window, whose array the
write-backs never touch, or bypasses it. So the last boundary valuation at an argument's buffer walks back to the launch
memory, and the run's post gives the frame claim. -/

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 4).trans (((dat1 (V2 m ρ) c).arrAt_in 4 rfl _).trans (A_eq1 (V2 m ρ) c 4))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- THE FRAME at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c)⟩) (run_all m ρ)

end Cert.KernelIdeal.Hand

end
-- ==== Proof.Payloads.lean ====
/-
  The six values the two kernels store, read at a row and a column over the extended reals.

  Each stored value is one pure term of the vectors loaded before it: a matrix product into the zero accumulator,
  a bias row laid along the rows, a sum, a clamp at zero, a residual. At the ideal values a rounding between float
  formats is the identity and a product is the plain sum over the contracted axis, so every stored value is, index by
  index, one of the layer formulas
      (j, q) ↦ ∑ k, X j k · W k q                          (a support),
      (p, q) ↦ max ((∑ j, A p j · S j q) + b q) 0          (a clamped convolution),
      (p, q) ↦ (∑ j, A p j · S j q) + b q                  (the output convolution),
  with the sums in the very grouping the kernels compute them in: nothing here uses a law of arithmetic.
-/
import proofs.«108309_g5239860101595_cont_sun_m_358_23_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.Payloads

open Cert.KernelIdeal Cert.KernelIdeal.Gen Idealize.ShloMosaic Idealize.ShloMosaic.ValueIdx

/-! ## The matrix products, read at a row and a column

At the ideal values a product into the zero accumulator is the plain sum, over the one contracted axis, of the
left operand along its row times the right operand down its column. One lemma per pair of operand shapes. -/

/-- The left operand's row coordinate under `dot_S10000x128_S128x128_S10000x128_1_0_0_1_n_n` is the output's row. -/
theorem matmul_feat_weight_lhs_row (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The right operand's column coordinate under `dot_S10000x128_S128x128_S10000x128_1_0_0_1_n_n` is the output's column. -/
theorem matmul_feat_weight_rhs_col (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The 10000 × 128 features times a 128 × 128 weight: the inner product along the 128 channels. -/
theorem matmul_feat_weight (x : FVec Ideal S10000x128 .bf16) (w : FVec Ideal S128x128 .bf16) (j : Fin 10000) (q : Fin 128) :
    matmul (F := Ideal) dot_S10000x128_S128x128_S10000x128_1_0_0_1_n_n none x w (constant (F := Ideal) S10000x128 .f32 0x00000000#32) (ix2 j q)
      = ∑ k : Fin 128, x (ix2 j k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 j q) ((ValueIdx.contrEquiv1 dot_S10000x128_S128x128_S10000x128_1_0_0_1_n_n 128 rfl rfl).symm k) = ix2 j k :=
    funext fun a => Fin.ext (by
      match a with
      | ⟨0, _⟩ => exact matmul_feat_weight_lhs_row _ _
      | ⟨1, _⟩ => exact (dot_S10000x128_S128x128_S10000x128_1_0_0_1_n_n.lhsIdx_val_of_single rfl _ _).trans hk)
  have er : dot_S10000x128_S128x128_S10000x128_1_0_0_1_n_n.rhsIdx (ix2 j q) ((ValueIdx.contrEquiv1 dot_S10000x128_S128x128_S10000x128_1_0_0_1_n_n 128 rfl rfl).symm k) = ix2 k q :=
    funext fun a => Fin.ext (by
      match a with
      | ⟨0, _⟩ => exact (dot_S10000x128_S128x128_S10000x128_1_0_0_1_n_n.rhsIdx_val_of_single rfl _ _).trans hk
      | ⟨1, _⟩ => exact matmul_feat_weight_rhs_col _ _)
  rw [el, er]

/-- The left operand's row coordinate under `dot_S400x10000_S10000x128_S400x128_1_0_0_1_n_n` is the output's row. -/
theorem matmul_adj400_support_lhs_row (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- The right operand's column coordinate under `dot_S400x10000_S10000x128_S400x128_1_0_0_1_n_n` is the output's column. -/
theorem matmul_adj400_support_rhs_col (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- A tile of 400 adjacency rows times the 10000 × 128 support: the sum over the 10000 nodes. -/
theorem matmul_adj400_support (x : FVec Ideal S400x10000 .bf16) (w : FVec Ideal S10000x128 .bf16) (p : Fin 400) (q : Fin 128) :
    matmul (F := Ideal) dot_S400x10000_S10000x128_S400x128_1_0_0_1_n_n none x w (constant (F := Ideal) S400x128 .f32 0x00000000#32) (ix2 p q)
      = ∑ k : Fin 10000, x (ix2 p k) * w (ix2 k q) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k :=
    funext fun a => Fin.ext (by
      match a with
      | ⟨0, _⟩ => exact matmul_adj400_support_lhs_row _ _
      | ⟨1, _⟩ => exact (dot_S400x10000_S10000x128_S400x128_1_0_0_1_n_n.lhsIdx_val_of_single rfl _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q :=
    funext fun a => Fin.ext (by
      match a with
      | ⟨0, _⟩ => exact (dot_S400x10000_S10000x128_S400x128_1_0_0_1_n_n.rhsIdx_val_of_single rfl _ _).trans hk
      | ⟨1, _⟩ => exact matmul_adj400_support_rhs_col _ _)
  rw [el, er]

/-- The left operand's row coordinate under `dot_S400x128_S128x128_S400x128_1_0_0_1_n_n` is the output's row. -/
theorem matmul_hid400_weight_lhs_row (i : S400x128.Idx) (c : dot_S400x128_S128x128_S400x128_1_0_0_1_n_n.contr.Idx) :
    (dot_S400x128_S128x128_S400x128_1_0_0_1_n_n.lhsIdx i c 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl

/-- The right operand's column coordinate under `dot_S400x128_S128x128_S400x128_1_0_0_1_n_n` is the output's column. -/
theorem matmul_hid400_weight_rhs_col (i : S400x128.Idx) (c : dot_S400x128_S128x128_S400x128_1_0_0_1_n_n.contr.Idx) :
    (dot_S400x128_S128x128_S400x128_1_0_0_1_n_n.rhsIdx i c 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- A tile of 400 hidden rows times a 128 × 128 weight: the inner product along the 128 channels. -/
theorem matmul_hid400_weight (x : FVec Ideal S400x128 .bf16) (w : FVec Ideal S128x128 .bf16) (p : Fin 400) (q : Fin 128) :
    matmul (F := Ideal) dot_S400x128_S128x128_S400x128_1_0_0_1_n_n none x w (constant (F := Ideal) S400x128 .f32 0x00000000#32) (ix2 p q)
      = ∑ k : Fin 128, x (ix2 p k) * w (ix2 k q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k :=
    funext fun a => Fin.ext (by
      match a with
      | ⟨0, _⟩ => exact matmul_hid400_weight_lhs_row _ _
      | ⟨1, _⟩ => exact (dot_S400x128_S128x128_S400x128_1_0_0_1_n_n.lhsIdx_val_of_single rfl _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q :=
    funext fun a => Fin.ext (by
      match a with
      | ⟨0, _⟩ => exact (dot_S400x128_S128x128_S400x128_1_0_0_1_n_n.rhsIdx_val_of_single rfl _ _).trans hk
      | ⟨1, _⟩ => exact matmul_hid400_weight_rhs_col _ _)
  rw [el, er]

/-- The left operand's row coordinate under `dot_S1000x10000_S10000x128_S1000x128_1_0_0_1_n_n` is the output's row. -/
theorem matmul_adj1000_support_lhs_row (i : S1000x128.Idx) (c : dot_S1000x10000_S10000x128_S1000x128_1_0_0_1_n_n.contr.Idx) :
    (dot_S1000x10000_S10000x128_S1000x128_1_0_0_1_n_n.lhsIdx i c 0).val = (i 0).val := by
  unfold DotDims.lhsIdx
  rw [dif_neg (show ¬(0 : Fin S1000x10000.rank) ∈ dot_S1000x10000_S10000x128_S1000x128_1_0_0_1_n_n.lhsBatch by decide),
    dif_pos (show (0 : Fin S1000x10000.rank) ∈ dot_S1000x10000_S10000x128_S1000x128_1_0_0_1_n_n.lhsNonContracting by decide)]
  rfl

/-- The right operand's column coordinate under `dot_S1000x10000_S10000x128_S1000x128_1_0_0_1_n_n` is the output's column. -/
theorem matmul_adj1000_support_rhs_col (i : S1000x128.Idx) (c : dot_S1000x10000_S10000x128_S1000x128_1_0_0_1_n_n.contr.Idx) :
    (dot_S1000x10000_S10000x128_S1000x128_1_0_0_1_n_n.rhsIdx i c 1).val = (i 1).val := by
  unfold DotDims.rhsIdx
  rw [dif_neg (show ¬(1 : Fin S10000x128.rank) ∈ dot_S1000x10000_S10000x128_S1000x128_1_0_0_1_n_n.rhsBatch by decide),
    dif_pos (show (1 : Fin S10000x128.rank) ∈ dot_S1000x10000_S10000x128_S1000x128_1_0_0_1_n_n.rhsNonContracting by decide)]
  rfl

/-- A tile of 1000 adjacency rows times the 10000 × 128 support: the sum over the 10000 nodes. -/
theorem matmul_adj1000_support (x : FVec Ideal S1000x10000 .bf16) (w : FVec Ideal S10000x128 .bf16) (p : Fin 1000) (q : Fin 128) :
    matmul (F := Ideal) dot_S1000x10000_S10000x128_S1000x128_1_0_0_1_n_n none x w (constant (F := Ideal) S1000x128 .f32 0x00000000#32) (ix2 p q)
      = ∑ k : Fin 10000, x (ix2 p k) * w (ix2 k q) := by
  simp only [matmul]
  rw [Ideal.matmul_constant_zero_apply, ← Equiv.sum_comp (ValueIdx.contrEquiv1 dot_S1000x10000_S10000x128_S1000x128_1_0_0_1_n_n 10000 rfl rfl).symm]
  refine Finset.sum_congr rfl fun k _ => ?_
  have hk := ValueIdx.contrEquiv1_symm_val dot_S1000x10000_S10000x128_S1000x128_1_0_0_1_n_n 10000 rfl rfl k
  have el : dot_S1000x10000_S10000x128_S1000x128_1_0_0_1_n_n.lhsIdx (ix2 p q) ((ValueIdx.contrEquiv1 dot_S1000x10000_S10000x128_S1000x128_1_0_0_1_n_n 10000 rfl rfl).symm k) = ix2 p k :=
    funext fun a => Fin.ext (by
      match a with
      | ⟨0, _⟩ => exact matmul_adj1000_support_lhs_row _ _
      | ⟨1, _⟩ => exact (dot_S1000x10000_S10000x128_S1000x128_1_0_0_1_n_n.lhsIdx_val_of_single rfl _ _).trans hk)
  have er : dot_S1000x10000_S10000x128_S1000x128_1_0_0_1_n_n.rhsIdx (ix2 p q) ((ValueIdx.contrEquiv1 dot_S1000x10000_S10000x128_S1000x128_1_0_0_1_n_n 10000 rfl rfl).symm k) = ix2 k q :=
    funext fun a => Fin.ext (by
      match a with
      | ⟨0, _⟩ => exact (dot_S1000x10000_S10000x128_S1000x128_1_0_0_1_n_n.rhsIdx_val_of_single rfl _ _).trans hk
      | ⟨1, _⟩ => exact matmul_adj1000_support_rhs_col _ _)
  rw [el, er]

/-- The left operand's row coordinate under `dot_S1000x128_S128x128_S1000x128_1_0_0_1_n_n` is the output's row. -/
theorem matmul_hid1000_weight_lhs_row (i : S1000x128.Idx) (c : dot_S1000x128_S128x128_S1000x128_1_0_0_1_n_n.contr.Idx) :
    (dot_S1000x128_S128x128_S1000x128_1_0_0_1_n_n.lhsIdx i c 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

/-- The right operand's column coordinate under `dot_S1000x128_S128x128_S1000x128_1_0_0_1_n_n` is the output's column. -/
theorem matmul_hid1000_weight_rhs_col (i : S1000x128.Idx) (c : dot_S1000x128_S128x128_S1000x128_1_0_0_1_n_n.contr.Idx) :
    (dot_S1000x128_S128x128_S1000x128_1_0_0_1_n_n.rhsIdx i c 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- A tile of 1000 hidden rows times a 128 × 128 weight: the inner product along the 128 channels. -/
theorem matmul_hid1000_weight (x : FVec Ideal S1000x128 .bf16) (w : FVec Ideal S128x128 .bf16) (p : Fin 1000) (q : Fin 128) :
    matmul (F := Ideal) dot_S1000x128_S128x128_S1000x128_1_0_0_1_n_n none x w (constant (F := Ideal) S1000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k :=
    funext fun a => Fin.ext (by
      match a with
      | ⟨0, _⟩ => exact matmul_hid1000_weight_lhs_row _ _
      | ⟨1, _⟩ => exact (dot_S1000x128_S128x128_S1000x128_1_0_0_1_n_n.lhsIdx_val_of_single rfl _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q :=
    funext fun a => Fin.ext (by
      match a with
      | ⟨0, _⟩ => exact (dot_S1000x128_S128x128_S1000x128_1_0_0_1_n_n.rhsIdx_val_of_single rfl _ _).trans hk
      | ⟨1, _⟩ => exact matmul_hid1000_weight_rhs_col _ _)
  rw [el, er]

/-! ## The bias row along the rows of a tile -/

/-- The bias row, of shape [1, 128], laid along the 400 rows: at row `p`, column `q` it is the bias at column `q`. -/
theorem bias_rows400 (b : FVec Ideal S1x128 .f32) (hb : S1x128.Broadcasts S400x128) (p : Fin 400) (q : Fin 128) :
    broadcastTo S400x128 b hb (ix2 p q) = b (ix2 (0 : Fin 1) q) := by
  refine broadcastTo_apply b hb (ix2 p q) (ix2 (0 : Fin 1) q) (fun a => ?_)
  match a with
  | ⟨0, _⟩ => rfl
  | ⟨1, _⟩ => rfl

/-- The bias row, of shape [1, 128], laid along the 1000 rows: at row `p`, column `q` it is the bias at column `q`. -/
theorem bias_rows1000 (b : FVec Ideal S1x128 .f32) (hb : S1x128.Broadcasts S1000x128) (p : Fin 1000) (q : Fin 128) :
    broadcastTo S1000x128 b hb (ix2 p q) = b (ix2 (0 : Fin 1) q) := by
  refine broadcastTo_apply b hb (ix2 p q) (ix2 (0 : Fin 1) q) (fun a => ?_)
  match a with
  | ⟨0, _⟩ => rfl
  | ⟨1, _⟩ => rfl

/-! ## The six stored values, read at a row and a column

The roundings to and from the narrower format are the identity on the extended reals, a cast to the same shape is
the identity, and the clamp's zero word is the extended real `0`. -/

/-- The first layer's support: the features times the first weight. -/
theorem pay1_apply (x : Vec Ideal S10000x128 .f32) (w : Vec Ideal S128x128 .f32) (j : Fin 10000) (q : Fin 128) :
    k0_pay1 (F := Ideal) x w (ix2 j q) = ∑ k : Fin 128, x (ix2 j k) * w (ix2 k q) := by
  unfold k0_pay1
  simp only [shapeCast_self, truncf_apply]
  exact matmul_feat_weight _ _ j q

/-- The adjacency tile stored in the narrower format: itself. -/
theorem pay2_apply (a : Vec Ideal S400x10000 .f32) (p : Fin 400) (j : Fin 10000) :
    k0_pay2 (F := Ideal) a (ix2 p j) = a (ix2 p j) := rfl

/-- The first hidden layer on a tile of 400 rows: the convolution of the support plus the bias, clamped below at zero. -/
theorem pay3_apply (a : Vec Ideal S400x10000 .f32) (s : Vec Ideal S10000x128 .bf16) (b : Vec Ideal S1x128 .f32)
    (p : Fin 400) (q : Fin 128) :
    k0_pay3 (F := Ideal) a s b (ix2 p q)
      = max ((∑ j : Fin 10000, a (ix2 p j) * s (ix2 j q)) + b (ix2 (0 : Fin 1) q)) 0 := by
  unfold k0_pay3
  simp only [shapeCast_self, truncf_apply, maximumf_apply, addf_apply, broadcast_apply]
  rw [matmul_adj400_support, bias_rows400]
  show max ((∑ j : Fin 10000, a (ix2 p j) * s (ix2 j q)) + b (ix2 (0 : Fin 1) q)) (Ideal.ofBits .f32 0x00000000#32) = _
  rw [Ideal.ofBits_zero_f32]

/-- The second layer's support on the tile: the first hidden layer times the second weight. -/
theorem pay4_apply (a : Vec Ideal S400x10000 .f32) (s : Vec Ideal S10000x128 .bf16) (b : Vec Ideal S1x128 .f32)
    (w : Vec Ideal S128x128 .f32) (p : Fin 400) (q : Fin 128) :
    k0_pay4 (F := Ideal) a s b w (ix2 p q) = ∑ k : Fin 128, k0_pay3 (F := Ideal) a s b (ix2 p k) * w (ix2 k q) := by
  unfold k0_pay4
  simp only [truncf_apply]
  exact matmul_hid400_weight _ _ p q

/-- The third layer's support on a tile of 1000 rows: the second hidden layer (the clamped convolution plus the
    residual) times the third weight. -/
theorem k1_pay1_apply (a : Vec Ideal S1000x10000 .bf16) (s : Vec Ideal S10000x128 .bf16) (b : Vec Ideal S1x128 .f32)
    (h : Vec Ideal S1000x128 .bf16) (w : Vec Ideal S128x128 .f32) (p : Fin 1000) (q : Fin 128) :
    k1_pay1 (F := Ideal) a s b h w (ix2 p q)
      = ∑ k : Fin 128, (max ((∑ j : Fin 10000, a (ix2 p j) * s (ix2 j k)) + b (ix2 (0 : Fin 1) k)) 0 + h (ix2 p k))
          * w (ix2 k q) := by
  unfold k1_pay1
  simp only [shapeCast_self]
  refine (matmul_hid1000_weight _ _ p q).trans ?_
  refine Finset.sum_congr rfl fun k _ => ?_
  simp only [truncf_apply, extf_apply, addf_apply, maximumf_apply, broadcast_apply]
  rw [matmul_adj1000_support, bias_rows1000]
  show (max ((∑ j : Fin 10000, a (ix2 p j) * s (ix2 j k)) + b (ix2 (0 : Fin 1) k)) (Ideal.ofBits .f32 0x00000000#32)
      + h (ix2 p k)) * w (ix2 k q) = _
  rw [Ideal.ofBits_zero_f32]

/-- The output layer on a tile of 1000 rows: the convolution of the third support plus the bias, not clamped. -/
theorem k1_pay2_apply (a : Vec Ideal S1000x10000 .bf16) (s : Vec Ideal S10000x128 .f32) (b : Vec Ideal S1x128 .f32)
    (p : Fin 1000) (q : Fin 128) :
    k1_pay2 (F := Ideal) a s b (ix2 p q) = (∑ j : Fin 10000, a (ix2 p j) * s (ix2 j q)) + b (ix2 (0 : Fin 1) q) := by
  unfold k1_pay2
  simp only [shapeCast_self, addf_apply]
  rw [matmul_adj1000_support, bias_rows1000]
  rfl

end Cert.KernelIdeal.Payloads

end
-- ==== Proof.GcnSpec.lean ====
/-
  Three stacked graph convolutions over a dense 10000 × 10000 adjacency, by coordinates over the extended reals.

  With A the adjacency, X the features, W₁ W₂ W₃ the 128 × 128 weights and b₁ b₂ b₃ the biases,

      support H W  = H · W                         (j, q) ↦ ∑ k, H j k · W k q
      conv A S b   = A · S + b                     (r, q) ↦ (∑ j, A r j · S j q) + b q
      h₁ = max (conv A (support X W₁) b₁) 0
      h₂ = max (conv A (support h₁ W₂) b₂) 0 + h₁
      out = conv A (support h₂ W₃) b₃.

  Every sum is taken in this one grouping — the inner product with the weight first, the product with the adjacency
  second — so no distributive law, and hence no finiteness of the inputs, is needed to recognise a program that
  computes the layers in this arrangement, whatever its tiling of the rows.
-/
import Idealize.ShloMosaic.PureOps.Ideal
import Idealize.ShloMosaic.Lib.ValueIdx

noncomputable section

open scoped BigOperators

namespace Cert.GcnSpec

open Idealize.ShloMosaic Idealize.ShloMosaic.ValueIdx

/-- A matrix of extended reals by its two coordinates. -/
abbrev Mat (a b : ℕ) : Type := Fin a → Fin b → EReal

/-- The support of a layer: the features times the weight. -/
def support (H : Mat 10000 128) (W : Mat 128 128) : Mat 10000 128 :=
  fun j q => ∑ k : Fin 128, H j k * W k q

/-- One graph convolution of a support: the adjacency times the support, plus the bias along the rows. -/
def conv (A : Mat 10000 10000) (S : Mat 10000 128) (b : Fin 128 → EReal) : Mat 10000 128 :=
  fun r q => (∑ j : Fin 10000, A r j * S j q) + b q

/-- The first hidden layer: the convolution of the input's support, clamped below at zero. -/
def hidden1 (A : Mat 10000 10000) (X : Mat 10000 128) (W1 : Mat 128 128) (b1 : Fin 128 → EReal) : Mat 10000 128 :=
  fun r q => max (conv A (support X W1) b1 r q) 0

/-- The second hidden layer: the clamped convolution of the first layer's support, plus the first layer (the residual). -/
def hidden2 (A : Mat 10000 10000) (X : Mat 10000 128) (W1 : Mat 128 128) (b1 : Fin 128 → EReal)
    (W2 : Mat 128 128) (b2 : Fin 128 → EReal) : Mat 10000 128 :=
  fun r q => max (conv A (support (hidden1 A X W1 b1) W2) b2 r q) 0 + hidden1 A X W1 b1 r q

/-- The output layer: the convolution of the second layer's support, not clamped. -/
def output (A : Mat 10000 10000) (X : Mat 10000 128) (W1 : Mat 128 128) (b1 : Fin 128 → EReal)
    (W2 : Mat 128 128) (b2 : Fin 128 → EReal) (W3 : Mat 128 128) (b3 : Fin 128 → EReal) : Mat 10000 128 :=
  conv A (support (hidden2 A X W1 b1 W2 b2) W3) b3

/-- A rank-2 array of extended reals read as a matrix. -/
def mat {a b : ℕ} (x : (⟨2, ![a, b]⟩ : Shape).Idx → EReal) : Mat a b := fun r q => x (ix2 r q)

/-- A rank-1 array of extended reals read by its coordinate. -/
def vec {a : ℕ} (x : (⟨1, ![a]⟩ : Shape).Idx → EReal) : Fin a → EReal := fun q => x (ix1 q)

/-- The whole network as one function of the argument arrays (features, adjacency, then weight and bias per layer),
    index by index. -/
def G (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal) :
    (⟨2, ![10000, 128]⟩ : Shape).Idx → EReal :=
  fun i => output (mat adj) (mat x) (mat W1) (vec b1) (mat W2) (vec b2) (mat W3) (vec b3) (i 0) (i 1)

/-- The network at an index given by its coordinates. -/
theorem G_ix2 (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (r : Fin 10000) (q : Fin 128) :
    G x adj W1 b1 W2 b2 W3 b3 (ix2 r q)
      = output (mat adj) (mat x) (mat W1) (vec b1) (mat W2) (vec b2) (mat W3) (vec b3) r q := rfl

end Cert.GcnSpec

end
-- ==== Proof.IdealValue0.lean ====
/-
  The first kernel's three output arrays after its region, as whole-array functions of what the region finds.

  The region runs 25 points; point `t` reads rows `400 t … 400 t + 399` of the adjacency and the whole feature,
  weight and bias arrays, and writes back rows `400 t … 400 t + 399` of each output. With A the adjacency, X the
  features, W₁ W₂ the weights and b₁ the bias, a row `r = 400 t + p` of the three outputs is

      A r ·                                          (the adjacency, stored in the narrower format),
      h₁ r q = max ((∑ j, A r j · (∑ k, X j k · W₁ k q)) + b₁ q) 0   (the first hidden layer),
      ∑ k, h₁ r k · W₂ k q                           (the second layer's support),

  the inner support X · W₁ being the one the first point computes once and every later point finds. The 25 blocks
  of 400 rows tile the 10000 rows, so each array ends holding its function at every index.
-/
import proofs.«108309_g5239860101595_cont_sun_m_358_23_alg».proof.Proof.IdealData0
import proofs.«108309_g5239860101595_cont_sun_m_358_23_alg».proof.Proof.Payloads
import proofs.«108309_g5239860101595_cont_sun_m_358_23_alg».proof.Proof.GcnSpec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.Payloads Cert.GcnSpec
open Idealize.ShloMosaic Idealize.ShloMosaic.TcCoe Idealize.ShloMosaic.ValueIdx
open Idealize.SL.Sem
open Idealize.ShloMosaic.Pipeline (Dat Cfg Window)
open Facts₀ Facts

section Value0

variable (V : (c : Dev nD) → (b : Ref sig .tc) → Buf (Elt Ideal) ((c : Thread nD τ).loc b))

/-! ## The printed index maps over the grid -/

/-- The adjacency window and the three output windows move down the rows with the point, one block of 400 rows a
    point; the feature, weight and bias windows stay at block (0, 0). -/
theorem index_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## The input blocks as parts of the arrays the region finds -/

/-- The adjacency's block at point `t` is its rows `400 t … 400 t + 399`. -/
theorem adj_block (c : Dev nD) (t : Fin cfg0.N) (x : S400x10000.Idx) (k : S10000x10000.Idx)
    (hk0 : (k 0).val = 400 * t.val + (x 0).val) (hk1 : (k 1).val = (x 1).val) :
    (iblk0 V c 0 t : S400x10000.Idx → EReal) x = (V c main_arg1 : S10000x10000.Idx → EReal) k := by
  obtain ⟨e0, e1⟩ := (index_facts0 t).1
  unfold iblk0
  rw [View.read_apply]
  show V c main_arg1 _ = V c main_arg1 _
  congr 1
  funext a
  apply Fin.ext
  match a with
  | ⟨0, _⟩ => show win0_0.index t 0 * 400 + 1 * (x 0).val = (k 0).val; rw [e0, hk0]; omega
  | ⟨1, _⟩ => show win0_0.index t 1 * 10000 + 1 * (x 1).val = (k 1).val; rw [e1, hk1]; omega

/-- The features' block is the whole feature array, at every point. -/
theorem feat_block (c : Dev nD) (t : Fin cfg0.N) (x : S10000x128.Idx) :
    (iblk0 V c 1 t : S10000x128.Idx → EReal) x = (V c main_arg0 : S10000x128.Idx → EReal) x := by
  obtain ⟨e0, e1⟩ := (index_facts0 t).2.1
  unfold iblk0
  rw [View.read_apply]
  show V c main_arg0 _ = V c main_arg0 _
  congr 1
  funext a
  apply Fin.ext
  match a with
  | ⟨0, _⟩ => show win0_1.index t 0 * 10000 + 1 * (x 0).val = (x 0).val; rw [e0]; omega
  | ⟨1, _⟩ => show win0_1.index t 1 * 128 + 1 * (x 1).val = (x 1).val; rw [e1]; omega

/-- The first weight's block is the whole weight, at every point. -/
theorem weight1_block (c : Dev nD) (t : Fin cfg0.N) (x : S128x128.Idx) :
    (iblk0 V c 2 t : S128x128.Idx → EReal) x = (V c main_arg2 : S128x128.Idx → EReal) x := by
  obtain ⟨e0, e1⟩ := (index_facts0 t).2.2.1
  unfold iblk0
  rw [View.read_apply]
  show V c main_arg2 _ = V c main_arg2 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The first bias row's block is the whole row, at every point. -/
theorem bias1_block (c : Dev nD) (t : Fin cfg0.N) (x : S1x128.Idx) :
    (iblk0 V c 3 t : S1x128.Idx → EReal) x = (V c main_v0 : S1x128.Idx → EReal) x := by
  obtain ⟨e0, e1⟩ := (index_facts0 t).2.2.2.1
  unfold iblk0
  rw [View.read_apply]
  show V c main_v0 _ = V c main_v0 _
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- The second weight's block is the whole weight, at every point. -/
theorem weight2_block (c : Dev nD) (t : Fin cfg0.N) (x : S128x128.Idx) :
    (iblk0 V c 4 t : S128x128.Idx → EReal) x = (V c main_arg4 : S128x128.Idx → EReal) x := by
  obtain ⟨e0, e1⟩ := (index_facts0 t).2.2.2.2.1
  unfold iblk0
  rw [View.read_apply]
  show V c main_arg4 _ = V c main_arg4 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-! ## The arrays the region finds, as the matrices of the layer formulas -/

/-- The adjacency. -/
abbrev adjM (c : Dev nD) : Mat 10000 10000 := mat (a := 10000) (b := 10000) (V c main_arg1)
/-- The features. -/
abbrev featM (c : Dev nD) : Mat 10000 128 := mat (a := 10000) (b := 128) (V c main_arg0)
/-- The first weight. -/
abbrev weightM1 (c : Dev nD) : Mat 128 128 := mat (a := 128) (b := 128) (V c main_arg2)
/-- The second weight. -/
abbrev weightM2 (c : Dev nD) : Mat 128 128 := mat (a := 128) (b := 128) (V c main_arg4)
/-- The first bias, read off its [1, 128] row. -/
abbrev biasV1 (c : Dev nD) : Fin 128 → EReal := fun q => (V c main_v0 : S1x128.Idx → EReal) (ix2 (0 : Fin 1) q)

/-- What the first output array ends holding: the adjacency itself. -/
def adjCopy (c : Dev nD) : S10000x10000.Idx → EReal := fun i => (V c main_arg1 : S10000x10000.Idx → EReal) i

/-- What the second output array ends holding: the first hidden layer. -/
def hiddenArr (c : Dev nD) : S10000x128.Idx → EReal :=
  fun i => hidden1 (adjM V c) (featM V c) (weightM1 V c) (biasV1 V c) (i 0) (i 1)

/-- What the third output array ends holding: the second layer's support. -/
def supportArr (c : Dev nD) : S10000x128.Idx → EReal :=
  fun i => support (hidden1 (adjM V c) (featM V c) (weightM1 V c) (biasV1 V c)) (weightM2 V c) (i 0) (i 1)

theorem hiddenArr_ix2 (c : Dev nD) (r : Fin 10000) (q : Fin 128) :
    hiddenArr V c (ix2 r q) = hidden1 (adjM V c) (featM V c) (weightM1 V c) (biasV1 V c) r q := rfl

theorem supportArr_ix2 (c : Dev nD) (r : Fin 10000) (q : Fin 128) :
    supportArr V c (ix2 r q) = support (hidden1 (adjM V c) (featM V c) (weightM1 V c) (biasV1 V c)) (weightM2 V c) r q := rfl

/-! ## What a point computes, on the rows of its block -/

/-- The scratch's contents from the first point on: the first layer's support. -/
theorem support1_apply (c : Dev nD) (j : Fin 10000) (q : Fin 128) :
    (S1 V c : S10000x128.Idx → EReal) (ix2 j q) = support (featM V c) (weightM1 V c) j q := by
  unfold S1
  refine (pay1_apply (iblk0 V c 1 t₀) (iblk0 V c 2 t₀) j q).trans ?_
  refine Finset.sum_congr rfl fun k _ => ?_
  rw [feat_block, weight1_block]
  rfl

/-- The first hidden layer on the rows of point `t`'s block. -/
theorem hidden_rows (c : Dev nD) (t : Fin cfg0.N) (p : Fin 400) (q : Fin 128) (r : Fin 10000)
    (hr : r.val = 400 * t.val + p.val) :
    (k0_pay3 (F := Ideal) (iblk0 V c 0 t) (S1 V c) (iblk0 V c 3 t) : S400x128.Idx → EReal) (ix2 p q)
      = hidden1 (adjM V c) (featM V c) (weightM1 V c) (biasV1 V c) r q := by
  refine (pay3_apply (iblk0 V c 0 t) (S1 V c) (iblk0 V c 3 t) p q).trans ?_
  unfold hidden1 conv
  rw [bias1_block]
  refine congrArg (fun z => max (z + biasV1 V c q) 0) (Finset.sum_congr rfl fun j _ => ?_)
  rw [adj_block V c t (ix2 p j) (ix2 r j) hr rfl, support1_apply]
  rfl

/-- The second layer's support on the rows of point `t`'s block. -/
theorem support2_rows (c : Dev nD) (t : Fin cfg0.N) (p : Fin 400) (q : Fin 128) (r : Fin 10000)
    (hr : r.val = 400 * t.val + p.val) :
    (k0_pay4 (F := Ideal) (iblk0 V c 0 t) (S1 V c) (iblk0 V c 3 t) (iblk0 V c 4 t) : S400x128.Idx → EReal) (ix2 p q)
      = support (hidden1 (adjM V c) (featM V c) (weightM1 V c) (biasV1 V c)) (weightM2 V c) r q := by
  refine (pay4_apply (iblk0 V c 0 t) (S1 V c) (iblk0 V c 3 t) (iblk0 V c 4 t) p q).trans ?_
  unfold support
  refine Finset.sum_congr rfl fun k _ => ?_
  rw [hidden_rows V c t p k r hr, weight2_block]
  rfl

/-! ## What each point writes back is its block of the whole-array function -/

/-- A row of point `t`'s block of 400 rows, as a row of the array. -/
theorem row_lt (t : Fin cfg0.N) (p : Fin 400) : 400 * t.val + p.val < 10000 := by
  have ht : t.val < 25 := lt_of_lt_of_eq t.isLt N_0
  have hp := p.isLt
  omega

theorem flushed_adj (c : Dev nD) (t : Fin cfg0.N) :
    (dat0 V c).flushed 5 t = ((cfg0.win 5).blk t).view.read (Elt Ideal) (adjCopy V c) := by
  obtain ⟨e0, e1⟩ := (index_facts0 t).2.2.2.2.2.1
  show (cfg0.win 5).cut (grid0.coords t) ((dat0 V c).after 5 t) = _
  rw [after0_5]
  funext y
  obtain ⟨p, j, rfl⟩ : ∃ (p : Fin 400) (j : Fin 10000), y = ix2 p j := ⟨y 0, y 1, eq_ix2 y⟩
  show (iblk0 V c 0 t : S400x10000.Idx → EReal) (ix2 p j) = (V c main_arg1 : S10000x10000.Idx → EReal) (((cfg0.win 5).blk t).view.emb (ix2 p j))
  refine adj_block V c t (ix2 p j) _ ?_ ?_
  · show win0_5.index t 0 * 400 + 1 * p.val = 400 * t.val + p.val; rw [e0]; omega
  · show win0_5.index t 1 * 10000 + 1 * j.val = j.val; rw [e1]; omega

theorem flushed_hidden (c : Dev nD) (t : Fin cfg0.N) :
    (dat0 V c).flushed 6 t = ((cfg0.win 6).blk t).view.read (Elt Ideal) (hiddenArr V c) := by
  obtain ⟨e0, e1⟩ := (index_facts0 t).2.2.2.2.2.2.1
  show (cfg0.win 6).cut (grid0.coords t) ((dat0 V c).after 6 t) = _
  rw [after0_6]
  funext y
  obtain ⟨p, q, rfl⟩ : ∃ (p : Fin 400) (q : Fin 128), y = ix2 p q := ⟨y 0, y 1, eq_ix2 y⟩
  have hi : ((cfg0.win 6).blk t).view.emb (ix2 p q) = (ix2 (⟨400 * t.val + p.val, row_lt t p⟩ : Fin 10000) q : S10000x128.Idx) := by
    funext a
    apply Fin.ext
    match a with
    | ⟨0, _⟩ => show win0_6.index t 0 * 400 + 1 * p.val = 400 * t.val + p.val; rw [e0]; omega
    | ⟨1, _⟩ => show win0_6.index t 1 * 128 + 1 * q.val = q.val; rw [e1]; omega
  show (k0_pay3 (F := Ideal) (iblk0 V c 0 t) (S1 V c) (iblk0 V c 3 t) : S400x128.Idx → EReal) (ix2 p q)
    = hiddenArr V c (((cfg0.win 6).blk t).view.emb (ix2 p q))
  rw [hi, hiddenArr_ix2]
  exact hidden_rows V c t p q _ rfl

theorem flushed_support2 (c : Dev nD) (t : Fin cfg0.N) :
    (dat0 V c).flushed 7 t = ((cfg0.win 7).blk t).view.read (Elt Ideal) (supportArr V c) := by
  obtain ⟨e0, e1⟩ := (index_facts0 t).2.2.2.2.2.2.2
  show (cfg0.win 7).cut (grid0.coords t) ((dat0 V c).after 7 t) = _
  rw [after0_7]
  funext y
  obtain ⟨p, q, rfl⟩ : ∃ (p : Fin 400) (q : Fin 128), y = ix2 p q := ⟨y 0, y 1, eq_ix2 y⟩
  have hi : ((cfg0.win 7).blk t).view.emb (ix2 p q) = (ix2 (⟨400 * t.val + p.val, row_lt t p⟩ : Fin 10000) q : S10000x128.Idx) := by
    funext a
    apply Fin.ext
    match a with
    | ⟨0, _⟩ => show win0_7.index t 0 * 400 + 1 * p.val = 400 * t.val + p.val; rw [e0]; omega
    | ⟨1, _⟩ => show win0_7.index t 1 * 128 + 1 * q.val = q.val; rw [e1]; omega
  show (k0_pay4 (F := Ideal) (iblk0 V c 0 t) (S1 V c) (iblk0 V c 3 t) (iblk0 V c 4 t) : S400x128.Idx → EReal) (ix2 p q)
    = supportArr V c (((cfg0.win 7).blk t).view.emb (ix2 p q))
  rw [hi, supportArr_ix2]
  exact support2_rows V c t p q _ rfl

/-! ## The blocks tile the arrays -/

/-- An index of the array is in point `t`'s block iff each coordinate is in the block's range on its axis. -/
theorem mem_rows5 (t : Fin cfg0.N) (i : S10000x10000.Idx) :
    i ∈ ((cfg0.win 5).blk t).view.set ↔ ∀ a : Fin 2, win0_5.index t a * win0_5.size a ≤ (i a).val
      ∧ (i a).val < win0_5.index t a * win0_5.size a + win0_5.size a := by
  show i ∈ ((View.whole main_v3_0).slice (win0_5.rect t)).set ↔ _
  rw [View.set_slice_whole, Rect.mem_set_unit]
  exact Iff.rfl

/-- The 25 blocks of 400 rows tile the array: row `r` is in the block of point `r / 400`. -/
theorem cover_rows5 (i : S10000x10000.Idx) :
    ∃ t : Fin cfg0.N, (cfg0.win 5).flush t = true ∧ i ∈ ((cfg0.win 5).blk t).view.set := by
  have h0 : (i 0).val < 10000 := (i 0).isLt
  have h1 : (i 1).val < 10000 := (i 1).isLt
  have hN : cfg0.N = 25 := N_0
  let t : Fin cfg0.N := ⟨(i 0).val / 400, by rw [hN]; omega⟩
  have ht : t.val = (i 0).val / 400 := rfl
  obtain ⟨e0, e1⟩ := (index_facts0 t).2.2.2.2.2.1
  refine ⟨t, flush0_5 t, ?_⟩
  rw [mem_rows5]
  intro a
  match a with
  | ⟨0, _⟩ =>
    show win0_5.index t 0 * 400 ≤ (i 0).val ∧ (i 0).val < win0_5.index t 0 * 400 + 400
    rw [e0, ht]; omega
  | ⟨1, _⟩ =>
    show win0_5.index t 1 * 10000 ≤ (i 1).val ∧ (i 1).val < win0_5.index t 1 * 10000 + 10000
    rw [e1]; omega

/-- An index of the array is in point `t`'s block iff each coordinate is in the block's range on its axis. -/
theorem mem_rows6 (t : Fin cfg0.N) (i : S10000x128.Idx) :
    i ∈ ((cfg0.win 6).blk t).view.set ↔ ∀ a : Fin 2, win0_6.index t a * win0_6.size a ≤ (i a).val
      ∧ (i a).val < win0_6.index t a * win0_6.size a + win0_6.size a := by
  show i ∈ ((View.whole main_v3_1).slice (win0_6.rect t)).set ↔ _
  rw [View.set_slice_whole, Rect.mem_set_unit]
  exact Iff.rfl

/-- The 25 blocks of 400 rows tile the array: row `r` is in the block of point `r / 400`. -/
theorem cover_rows6 (i : S10000x128.Idx) :
    ∃ t : Fin cfg0.N, (cfg0.win 6).flush t = true ∧ i ∈ ((cfg0.win 6).blk t).view.set := by
  have h0 : (i 0).val < 10000 := (i 0).isLt
  have h1 : (i 1).val < 128 := (i 1).isLt
  have hN : cfg0.N = 25 := N_0
  let t : Fin cfg0.N := ⟨(i 0).val / 400, by rw [hN]; omega⟩
  have ht : t.val = (i 0).val / 400 := rfl
  obtain ⟨e0, e1⟩ := (index_facts0 t).2.2.2.2.2.2.1
  refine ⟨t, flush0_6 t, ?_⟩
  rw [mem_rows6]
  intro a
  match a with
  | ⟨0, _⟩ =>
    show win0_6.index t 0 * 400 ≤ (i 0).val ∧ (i 0).val < win0_6.index t 0 * 400 + 400
    rw [e0, ht]; omega
  | ⟨1, _⟩ =>
    show win0_6.index t 1 * 128 ≤ (i 1).val ∧ (i 1).val < win0_6.index t 1 * 128 + 128
    rw [e1]; omega

/-- An index of the array is in point `t`'s block iff each coordinate is in the block's range on its axis. -/
theorem mem_rows7 (t : Fin cfg0.N) (i : S10000x128.Idx) :
    i ∈ ((cfg0.win 7).blk t).view.set ↔ ∀ a : Fin 2, win0_7.index t a * win0_7.size a ≤ (i a).val
      ∧ (i a).val < win0_7.index t a * win0_7.size a + win0_7.size a := by
  show i ∈ ((View.whole main_v3_2).slice (win0_7.rect t)).set ↔ _
  rw [View.set_slice_whole, Rect.mem_set_unit]
  exact Iff.rfl

/-- The 25 blocks of 400 rows tile the array: row `r` is in the block of point `r / 400`. -/
theorem cover_rows7 (i : S10000x128.Idx) :
    ∃ t : Fin cfg0.N, (cfg0.win 7).flush t = true ∧ i ∈ ((cfg0.win 7).blk t).view.set := by
  have h0 : (i 0).val < 10000 := (i 0).isLt
  have h1 : (i 1).val < 128 := (i 1).isLt
  have hN : cfg0.N = 25 := N_0
  let t : Fin cfg0.N := ⟨(i 0).val / 400, by rw [hN]; omega⟩
  have ht : t.val = (i 0).val / 400 := rfl
  obtain ⟨e0, e1⟩ := (index_facts0 t).2.2.2.2.2.2.2
  refine ⟨t, flush0_7 t, ?_⟩
  rw [mem_rows7]
  intro a
  match a with
  | ⟨0, _⟩ =>
    show win0_7.index t 0 * 400 ≤ (i 0).val ∧ (i 0).val < win0_7.index t 0 * 400 + 400
    rw [e0, ht]; omega
  | ⟨1, _⟩ =>
    show win0_7.index t 1 * 128 ≤ (i 1).val ∧ (i 1).val < win0_7.index t 1 * 128 + 128
    rw [e1]; omega

/-! ## The three output arrays after the region -/

/-- The first output array ends holding the adjacency. -/
theorem final0_5_arr (c : Dev nD) : (dat0 V c).arrAt 5 cfg0.N = adjCopy V c :=
  (dat0 V c).arrAt_eq_of_cover 5 (adjCopy V c) (fun t _ => flushed_adj V c t) cover_rows5

/-- The second output array ends holding the first hidden layer. -/
theorem final0_6_arr (c : Dev nD) : (dat0 V c).arrAt 6 cfg0.N = hiddenArr V c :=
  (dat0 V c).arrAt_eq_of_cover 6 (hiddenArr V c) (fun t _ => flushed_hidden V c t) cover_rows6

/-- The third output array ends holding the second layer's support. -/
theorem final0_7_arr (c : Dev nD) : (dat0 V c).arrAt 7 cfg0.N = supportArr V c :=
  (dat0 V c).arrAt_eq_of_cover 7 (supportArr V c) (fun t _ => flushed_support2 V c t) cover_rows7

/-- The narrowed copy of the adjacency is the adjacency. -/
theorem final0_5 (c : Dev nD) (r : Fin 10000) (j : Fin 10000) :
    ((dat0 V c).arrAt 5 cfg0.N : S10000x10000.Idx → EReal) (ix2 r j) = (V c main_arg1 : S10000x10000.Idx → EReal) (ix2 r j) := by
  rw [final0_5_arr]; rfl

/-- The first hidden layer, entry by entry. -/
theorem final0_6 (c : Dev nD) (r : Fin 10000) (q : Fin 128) :
    ((dat0 V c).arrAt 6 cfg0.N : S10000x128.Idx → EReal) (ix2 r q)
      = hidden1 (adjM V c) (featM V c) (weightM1 V c) (biasV1 V c) r q := by
  rw [final0_6_arr]; rfl

/-- The second layer's support, entry by entry. -/
theorem final0_7 (c : Dev nD) (r : Fin 10000) (q : Fin 128) :
    ((dat0 V c).arrAt 7 cfg0.N : S10000x128.Idx → EReal) (ix2 r q)
      = support (hidden1 (adjM V c) (featM V c) (weightM1 V c) (biasV1 V c)) (weightM2 V c) r q := by
  rw [final0_7_arr]; rfl

end Value0

end Cert.KernelIdeal.Hand

end
-- ==== Proof.LibRecast.lean ====
/-
  A vector recast as a one-row matrix or as a one-column matrix, read at an index: the row's entry k, and the column's
  entry e, are the vector's entries k and e. (A reshape keeps the row-major position, and the position of (0, k) in a
  1 × n matrix, like that of (e, 0) in an n × 1 matrix, is the position in the vector.)
-/
import Idealize.ShloMosaic.Lib.ValueIdx
import Idealize.ShloMosaic.Lib.Pipeline.Value

noncomputable section

namespace Cert.LibRecast

open Idealize.ShloMosaic Idealize.ShloMosaic.ValueIdx

variable {α : Type}

/-- A vector recast as one row, at (0, k). -/
theorem as_row_apply {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) := by
  refine shapeCast_apply x h (ix2 (0 : Fin 1) k) (ix1 k) ?_
  rewrite [Shape.rowMajor_val_two, Shape.rowMajor_val_one]
  show k.val = 0 * n + k.val
  omega

/-- A vector recast as one column, at (e, 0). -/
theorem as_column_apply {n : ℕ} (x : (⟨1, ![n]⟩ : Shape).Idx → α) (h : (⟨1, ![n]⟩ : Shape).ShapeCasts ⟨2, ![n, 1]⟩) (e : Fin n) :
    shapeCast ⟨2, ![n, 1]⟩ x h (ix2 e (0 : Fin 1)) = x (ix1 e) := by
  refine shapeCast_apply x h (ix2 e (0 : Fin 1)) (ix1 e) ?_
  rewrite [Shape.rowMajor_val_two, Shape.rowMajor_val_one]
  show e.val = e.val * 1 + 0
  omega

end Cert.LibRecast

end
-- ==== Proof.IdealEntry.lean ====
import proofs.«108309_g5239860101595_cont_sun_m_358_23_alg».proof.Proof.IdealRun
import proofs.«108309_g5239860101595_cont_sun_m_358_23_alg».proof.Proof.IdealValue0
import proofs.«108309_g5239860101595_cont_sun_m_358_23_alg».proof.Proof.LibRecast
import proofs.«108309_g5239860101595_cont_sun_m_358_23_alg».proof.Proof.GcnSpec
import Idealize.ShloMosaic.Lib.StableHlo.Run
import Idealize.ShloMosaic.Lib.ValueIdx
import proofs.«108309_g5239860101595_cont_sun_m_358_23_alg».proof.Proof.Gen.KernelIdeal.Skeleton
import proofs.«108309_g5239860101595_cont_sun_m_358_23_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # What the two regions find in their windows' arrays, in terms of the launch memory

Region 0 finds the arguments as launched and the first bias as a one-row matrix; region 1 finds region 0's three
outputs — the adjacency again, the first hidden layer, the second layer's support —, the other two biases as rows and the
third weight as launched. All at the ideal instance, by coordinates. -/

open Cert.GcnSpec Idealize.ShloMosaic.ValueIdx

variable (m : (ℓ : Loc nD τ sig) → Buf (Elt Ideal) ℓ) (ρ : Dev nD → PrngReg)

/-- No host operation writes argument 0. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg0) = W0 m ρ c (Proc.devRef .tc main_arg0))
/-- No host operation writes argument 1. -/
theorem V1_main_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg1) = W0 m ρ c (Proc.devRef .tc main_arg1))
/-- No host operation writes argument 2. -/
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg2) = W0 m ρ c (Proc.devRef .tc main_arg2))
/-- No host operation writes argument 4. -/
theorem V1_main_arg4 (c : Dev nD) : V1 m ρ c main_arg4 = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg4) = W0 m ρ c (Proc.devRef .tc main_arg4))
/-- No host operation writes argument 6. -/
theorem V1_main_arg6 (c : Dev nD) : V1 m ρ c main_arg6 = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg6) = W0 m ρ c (Proc.devRef .tc main_arg6))

/-- The reshape of bias 1 to one row keeps its entries. -/
theorem V1_main_v0_apply (c : Dev nD) (q : Fin 128) :
    (V1 m ρ c main_v0 : S1x128.Idx → EReal) (ix2 (0 : Fin 1) q) = (m ((c : Thread nD τ).loc main_arg3) : S128.Idx → EReal) (ix1 q) := by
  have e : (V1 m ρ c main_v0 : S1x128.Idx → EReal)
      = shapeCast S1x128 (m ((c : Thread nD τ).loc main_arg3) : S128.Idx → EReal) Facts₀.shapeCasts_S128_S1x128 := by
    show StableHlo.after hostOps0 (W0 m ρ c) (Proc.devRef .tc main_v0) = _
    after_results
    rfl
  rw [e]
  exact Cert.LibRecast.as_row_apply _ _ q
/-- The reshape of bias 2 to one row keeps its entries. -/
theorem V1_main_v1_apply (c : Dev nD) (q : Fin 128) :
    (V1 m ρ c main_v1 : S1x128.Idx → EReal) (ix2 (0 : Fin 1) q) = (m ((c : Thread nD τ).loc main_arg5) : S128.Idx → EReal) (ix1 q) := by
  have e : (V1 m ρ c main_v1 : S1x128.Idx → EReal)
      = shapeCast S1x128 (m ((c : Thread nD τ).loc main_arg5) : S128.Idx → EReal) Facts₀.shapeCasts_S128_S1x128 := by
    show StableHlo.after hostOps0 (W0 m ρ c) (Proc.devRef .tc main_v1) = _
    after_results
    rfl
  rw [e]
  exact Cert.LibRecast.as_row_apply _ _ q
/-- The reshape of bias 3 to one row keeps its entries. -/
theorem V1_main_v2_apply (c : Dev nD) (q : Fin 128) :
    (V1 m ρ c main_v2 : S1x128.Idx → EReal) (ix2 (0 : Fin 1) q) = (m ((c : Thread nD τ).loc main_arg7) : S128.Idx → EReal) (ix1 q) := by
  have e : (V1 m ρ c main_v2 : S1x128.Idx → EReal)
      = shapeCast S1x128 (m ((c : Thread nD τ).loc main_arg7) : S128.Idx → EReal) Facts₀.shapeCasts_S128_S1x128 := by
    show StableHlo.after hostOps0 (W0 m ρ c) (Proc.devRef .tc main_v2) = _
    after_results
    rfl
  rw [e]
  exact Cert.LibRecast.as_row_apply _ _ q

/-! ## The launch arrays by coordinates -/

abbrev X (c : Dev nD) : Mat 10000 128 := mat (a := 10000) (b := 128) (m ((c : Thread nD τ).loc main_arg0))
abbrev A (c : Dev nD) : Mat 10000 10000 := mat (a := 10000) (b := 10000) (m ((c : Thread nD τ).loc main_arg1))
abbrev Wt1 (c : Dev nD) : Mat 128 128 := mat (a := 128) (b := 128) (m ((c : Thread nD τ).loc main_arg2))
abbrev bs1 (c : Dev nD) : Fin 128 → EReal := vec (a := 128) (m ((c : Thread nD τ).loc main_arg3))
abbrev Wt2 (c : Dev nD) : Mat 128 128 := mat (a := 128) (b := 128) (m ((c : Thread nD τ).loc main_arg4))
abbrev bs2 (c : Dev nD) : Fin 128 → EReal := vec (a := 128) (m ((c : Thread nD τ).loc main_arg5))
abbrev Wt3 (c : Dev nD) : Mat 128 128 := mat (a := 128) (b := 128) (m ((c : Thread nD τ).loc main_arg6))
abbrev bs3 (c : Dev nD) : Fin 128 → EReal := vec (a := 128) (m ((c : Thread nD τ).loc main_arg7))

/-- Region 0's windows by coordinates are the launch arrays'. -/
theorem adjM_V1 (c : Dev nD) : adjM (V1 m ρ) c = A m c := by unfold adjM A; rw [V1_main_arg1]
theorem featM_V1 (c : Dev nD) : featM (V1 m ρ) c = X m c := by unfold featM X; rw [V1_main_arg0]
theorem weightM1_V1 (c : Dev nD) : weightM1 (V1 m ρ) c = Wt1 m c := by unfold weightM1 Wt1; rw [V1_main_arg2]
theorem weightM2_V1 (c : Dev nD) : weightM2 (V1 m ρ) c = Wt2 m c := by unfold weightM2 Wt2; rw [V1_main_arg4]
theorem biasV1_V1 (c : Dev nD) : biasV1 (V1 m ρ) c = bs1 m c := funext fun q => V1_main_v0_apply m ρ c q

/-! ## What region 1 finds -/

/-- The narrowed copy of the adjacency is the adjacency. -/
theorem V2_adj (c : Dev nD) (r j : Fin 10000) :
    (V2 m ρ c main_v3_0 : S10000x10000.Idx → EReal) (ix2 r j) = A m c r j := by
  have h := hF0 m ρ c 5
  have e : (V2 m ρ c main_v3_0 : S10000x10000.Idx → EReal) = ((dat0 (V1 m ρ) c).arrAt 5 cfg0.N : S10000x10000.Idx → EReal) := h.symm
  rw [e, final0_5 (V1 m ρ) c r j, V1_main_arg1]
  rfl

/-- Region 0's second output is the first hidden layer. -/
theorem V2_hidden1 (c : Dev nD) (r : Fin 10000) (q : Fin 128) :
    (V2 m ρ c main_v3_1 : S10000x128.Idx → EReal) (ix2 r q) = hidden1 (A m c) (X m c) (Wt1 m c) (bs1 m c) r q := by
  have h := hF0 m ρ c 6
  have e : (V2 m ρ c main_v3_1 : S10000x128.Idx → EReal) = ((dat0 (V1 m ρ) c).arrAt 6 cfg0.N : S10000x128.Idx → EReal) := h.symm
  rw [e, final0_6 (V1 m ρ) c r q, adjM_V1, featM_V1, weightM1_V1, biasV1_V1]

/-- Region 0's third output is the second layer's support. -/
theorem V2_support2 (c : Dev nD) (r : Fin 10000) (q : Fin 128) :
    (V2 m ρ c main_v3_2 : S10000x128.Idx → EReal) (ix2 r q)
      = support (hidden1 (A m c) (X m c) (Wt1 m c) (bs1 m c)) (Wt2 m c) r q := by
  have h := hF0 m ρ c 7
  have e : (V2 m ρ c main_v3_2 : S10000x128.Idx → EReal) = ((dat0 (V1 m ρ) c).arrAt 7 cfg0.N : S10000x128.Idx → EReal) := h.symm
  rw [e, final0_7 (V1 m ρ) c r q, adjM_V1, featM_V1, weightM1_V1, weightM2_V1, biasV1_V1]

/-- Region 0 leaves the other two bias rows and the third weight as it found them. -/
theorem V2_bias2 (c : Dev nD) (k : Fin 128) : (V2 m ρ c main_v1 : S1x128.Idx → EReal) (ix2 (0 : Fin 1) k) = bs2 m c k := by
  have e : V2 m ρ c main_v1 = V1 m ρ c main_v1 := W2_of_ne m ρ c main_v1 (by decide)
  rw [e]; exact V1_main_v1_apply m ρ c k
theorem V2_bias3 (c : Dev nD) (k : Fin 128) : (V2 m ρ c main_v2 : S1x128.Idx → EReal) (ix2 (0 : Fin 1) k) = bs3 m c k := by
  have e : V2 m ρ c main_v2 = V1 m ρ c main_v2 := W2_of_ne m ρ c main_v2 (by decide)
  rw [e]; exact V1_main_v2_apply m ρ c k
theorem V2_weight3 (c : Dev nD) (k q : Fin 128) : (V2 m ρ c main_arg6 : S128x128.Idx → EReal) (ix2 k q) = Wt3 m c k q := by
  have e : V2 m ρ c main_arg6 = V1 m ρ c main_arg6 := W2_of_ne m ρ c main_arg6 (by decide)
  rw [e, V1_main_arg6]
  rfl

end Cert.KernelIdeal.Hand

end
-- ==== Proof.IdealValue1.lean ====
import proofs.«108309_g5239860101595_cont_sun_m_358_23_alg».proof.Proof.IdealData1
import proofs.«108309_g5239860101595_cont_sun_m_358_23_alg».proof.Proof.Payloads
import proofs.«108309_g5239860101595_cont_sun_m_358_23_alg».proof.Proof.GcnSpec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Facts₀ Facts
open Cert.GcnSpec (mat)

/-! # Region 1 (the layers-2+3 call): the result array after the region, at the ideal values

The region's twenty grid points run in two phases. The first ten each compute one slab of 1000 rows of the third
layer's support — the clamped convolution of the adjacency's row block against the second support, plus the first
hidden layer's rows, times the third weight — so that the whole support is, row by row, one function `S3` of the
arrays as the region finds them. The last ten each compute one block of 1000 rows of the result — the adjacency's row
block against the whole support, plus the third bias — walking the row blocks downwards: point `t` writes rows
`1000·(19 − t) …`. Each block written back is therefore the block of ONE whole-array function of the region's entry
contents, and the ten blocks cover the array: the result array ends at that function.

Here: the block index maps decided over the grid; each window's block read as rows of its array; the slab and the
result block at a row and a column; what a point writes back; the cover; the array after the region. -/

section Value1

variable (V : (c : Dev nD) → (b : Ref sig .tc) → Buf (Elt Ideal) ((c : Thread nD τ).loc b))

/-- The block index maps, decided once over the twenty grid points: the adjacency's row block runs up through the first
    ten points and back down through the last ten; the first hidden layer's stops at its last block; the result's
    waits at its last block and then runs down with the adjacency's; every other window stays at its one block. -/
theorem block_indices1 : ∀ t : Fin cfg1.N,
    win1_0.index t (0 : Fin 2) = (if t.val < 10 then t.val else 19 - t.val) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = min t.val 9 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = (if t.val < 10 then 9 else 19 - t.val) ∧ win1_6.index t (1 : Fin 2) = 0 :=
  (by decide +kernel : ∀ t : Fin grid1.N, _)

/-- The result's block is written back exactly at the last ten points. -/
theorem flush1_6_iff : ∀ t : Fin cfg1.N, (cfg1.win 6).flush t = true ↔ 10 ≤ t.val :=
  (by decide +kernel : ∀ t : Fin grid1.N, _)

/-- An element of the adjacency's block at a point is the array's element in the block's rows. -/
theorem adj_block_apply (c : Dev nD) (t : Fin cfg1.N) (x : S1000x10000.Idx) (k : S10000x10000.Idx)
    (hk0 : (k 0).val = win1_0.index t (0 : Fin 2) * 1000 + (x 0).val) (hk1 : (k 1).val = (x 1).val) :
    (iblk1 V c 0 t : Vec Ideal S1000x10000 .bf16) x = (V c main_v3_0 : S10000x10000.Idx → EReal) k := by
  obtain ⟨-, e1, -⟩ := block_indices1 t
  unfold iblk1
  rw [View.read_apply]
  show V c main_v3_0 _ = V c main_v3_0 _
  congr 1
  funext a
  apply Fin.ext
  match a with
  | ⟨0, _⟩ => show win1_0.index t (0 : Fin 2) * 1000 + 1 * (x 0).val = (k 0).val; rw [hk0]; omega
  | ⟨1, _⟩ => show win1_0.index t (1 : Fin 2) * 10000 + 1 * (x 1).val = (k 1).val; rw [e1, hk1]; omega

/-- The second support's window is the whole array. -/
theorem supp2_block_apply (c : Dev nD) (t : Fin cfg1.N) (x : S10000x128.Idx) (k : S10000x128.Idx)
    (hk0 : (k 0).val = win1_1.index t (0 : Fin 2) * 10000 + (x 0).val) (hk1 : (k 1).val = (x 1).val) :
    (iblk1 V c 1 t : Vec Ideal S10000x128 .bf16) x = (V c main_v3_2 : S10000x128.Idx → EReal) k := by
  obtain ⟨-, -, -, e1, -⟩ := block_indices1 t
  unfold iblk1
  rw [View.read_apply]
  show V c main_v3_2 _ = V c main_v3_2 _
  congr 1
  funext a
  apply Fin.ext
  match a with
  | ⟨0, _⟩ => show win1_1.index t (0 : Fin 2) * 10000 + 1 * (x 0).val = (k 0).val; rw [hk0]; omega
  | ⟨1, _⟩ => show win1_1.index t (1 : Fin 2) * 128 + 1 * (x 1).val = (k 1).val; rw [e1, hk1]; omega

/-- The second bias row's window is the whole row. -/
theorem bias2_block_apply (c : Dev nD) (t : Fin cfg1.N) (x : S1x128.Idx) (k : S1x128.Idx)
    (hk0 : (k 0).val = win1_2.index t (0 : Fin 2) * 1 + (x 0).val) (hk1 : (k 1).val = (x 1).val) :
    (iblk1 V c 2 t : Vec Ideal S1x128 .f32) x = (V c main_v1 : S1x128.Idx → EReal) k := by
  obtain ⟨-, -, -, -, -, e1, -⟩ := block_indices1 t
  unfold iblk1
  rw [View.read_apply]
  show V c main_v1 _ = V c main_v1 _
  congr 1
  funext a
  apply Fin.ext
  match a with
  | ⟨0, _⟩ => show win1_2.index t (0 : Fin 2) * 1 + 1 * (x 0).val = (k 0).val; rw [hk0]; omega
  | ⟨1, _⟩ => show win1_2.index t (1 : Fin 2) * 128 + 1 * (x 1).val = (k 1).val; rw [e1, hk1]; omega

/-- An element of the first hidden layer's block at a point is the array's element in the block's rows. -/
theorem hid1_block_apply (c : Dev nD) (t : Fin cfg1.N) (x : S1000x128.Idx) (k : S10000x128.Idx)
    (hk0 : (k 0).val = win1_3.index t (0 : Fin 2) * 1000 + (x 0).val) (hk1 : (k 1).val = (x 1).val) :
    (iblk1 V c 3 t : Vec Ideal S1000x128 .bf16) x = (V c main_v3_1 : S10000x128.Idx → EReal) k := by
  obtain ⟨-, -, -, -, -, -, -, e1, -⟩ := block_indices1 t
  unfold iblk1
  rw [View.read_apply]
  show V c main_v3_1 _ = V c main_v3_1 _
  congr 1
  funext a
  apply Fin.ext
  match a with
  | ⟨0, _⟩ => show win1_3.index t (0 : Fin 2) * 1000 + 1 * (x 0).val = (k 0).val; rw [hk0]; omega
  | ⟨1, _⟩ => show win1_3.index t (1 : Fin 2) * 128 + 1 * (x 1).val = (k 1).val; rw [e1, hk1]; omega

/-- The third weight's window is the whole array. -/
theorem w3_block_apply (c : Dev nD) (t : Fin cfg1.N) (x : S128x128.Idx) (k : S128x128.Idx)
    (hk0 : (k 0).val = win1_4.index t (0 : Fin 2) * 128 + (x 0).val) (hk1 : (k 1).val = (x 1).val) :
    (iblk1 V c 4 t : Vec Ideal S128x128 .f32) x = (V c main_arg6 : S128x128.Idx → EReal) k := by
  obtain ⟨-, -, -, -, -, -, -, -, -, e1, -⟩ := block_indices1 t
  unfold iblk1
  rw [View.read_apply]
  show V c main_arg6 _ = V c main_arg6 _
  congr 1
  funext a
  apply Fin.ext
  match a with
  | ⟨0, _⟩ => show win1_4.index t (0 : Fin 2) * 128 + 1 * (x 0).val = (k 0).val; rw [hk0]; omega
  | ⟨1, _⟩ => show win1_4.index t (1 : Fin 2) * 128 + 1 * (x 1).val = (k 1).val; rw [e1, hk1]; omega

/-- The third bias row's window is the whole row. -/
theorem bias3_block_apply (c : Dev nD) (t : Fin cfg1.N) (x : S1x128.Idx) (k : S1x128.Idx)
    (hk0 : (k 0).val = win1_5.index t (0 : Fin 2) * 1 + (x 0).val) (hk1 : (k 1).val = (x 1).val) :
    (iblk1 V c 5 t : Vec Ideal S1x128 .f32) x = (V c main_v2 : S1x128.Idx → EReal) k := by
  obtain ⟨-, -, -, -, -, -, -, -, -, -, -, e1, -⟩ := block_indices1 t
  unfold iblk1
  rw [View.read_apply]
  show V c main_v2 _ = V c main_v2 _
  congr 1
  funext a
  apply Fin.ext
  match a with
  | ⟨0, _⟩ => show win1_5.index t (0 : Fin 2) * 1 + 1 * (x 0).val = (k 0).val; rw [hk0]; omega
  | ⟨1, _⟩ => show win1_5.index t (1 : Fin 2) * 128 + 1 * (x 1).val = (k 1).val; rw [e1, hk1]; omega

/-! ## The slab of the third support computed at one of the first ten points -/

/-- At a point `t` of the first phase, row `p` of the slab is row `1000·t + p` of the arrays: the clamped convolution of
    that row of the adjacency against the second support, plus the first hidden layer's row, times the third weight. -/
theorem slab_apply (c : Dev nD) (t : Fin cfg1.N) (ht : t.val < 10) (p : Fin 1000) (q : Fin 128) (r : Fin 10000)
    (hr : r.val = 1000 * t.val + p.val) :
    k1_pay1 (F := Ideal) (iblk1 V c 0 t) (iblk1 V c 1 t) (iblk1 V c 2 t) (iblk1 V c 3 t) (iblk1 V c 4 t) (ix2 p q)
      = ∑ k : Fin 128, (max ((∑ j : Fin 10000, mat (V c main_v3_0 : S10000x10000.Idx → EReal) r j * mat (V c main_v3_2 : S10000x128.Idx → EReal) j k) + (V c main_v1 : S1x128.Idx → EReal) (ix2 (0 : Fin 1) k)) 0
          + mat (V c main_v3_1 : S10000x128.Idx → EReal) r k) * mat (V c main_arg6 : S128x128.Idx → EReal) k q := by
  obtain ⟨e0, -, e1, -, e2, -, e3, -, e4, -⟩ := block_indices1 t
  rw [if_pos ht] at e0
  rw [min_eq_left (by omega : t.val ≤ 9)] at e3
  refine (Payloads.k1_pay1_apply (iblk1 V c 0 t) (iblk1 V c 1 t) (iblk1 V c 2 t) (iblk1 V c 3 t) (iblk1 V c 4 t) p q).trans ?_
  have hA : ∀ j : Fin 10000, (iblk1 V c 0 t : Vec Ideal S1000x10000 .bf16) (ix2 p j) = mat (V c main_v3_0 : S10000x10000.Idx → EReal) r j := fun j =>
    adj_block_apply V c t (ix2 p j) (ix2 r j) (by show r.val = _ * 1000 + p.val; rw [e0, hr]; omega) rfl
  have hS : ∀ (j : Fin 10000) (k : Fin 128), (iblk1 V c 1 t : Vec Ideal S10000x128 .bf16) (ix2 j k) = mat (V c main_v3_2 : S10000x128.Idx → EReal) j k := fun j k =>
    supp2_block_apply V c t (ix2 j k) (ix2 j k) (by show j.val = _ * 10000 + j.val; rw [e1]; omega) rfl
  have hB : ∀ k : Fin 128, (iblk1 V c 2 t : Vec Ideal S1x128 .f32) (ix2 (0 : Fin 1) k) = (V c main_v1 : S1x128.Idx → EReal) (ix2 (0 : Fin 1) k) := fun k =>
    bias2_block_apply V c t (ix2 (0 : Fin 1) k) (ix2 (0 : Fin 1) k) (by show (0 : Fin 1).val = _ * 1 + (0 : Fin 1).val; rw [e2]; omega) rfl
  have hH : ∀ k : Fin 128, (iblk1 V c 3 t : Vec Ideal S1000x128 .bf16) (ix2 p k) = mat (V c main_v3_1 : S10000x128.Idx → EReal) r k := fun k =>
    hid1_block_apply V c t (ix2 p k) (ix2 r k) (by show r.val = _ * 1000 + p.val; rw [e3, hr]; omega) rfl
  have hW : ∀ (k q : Fin 128), (iblk1 V c 4 t : Vec Ideal S128x128 .f32) (ix2 k q) = mat (V c main_arg6 : S128x128.Idx → EReal) k q := fun k q =>
    w3_block_apply V c t (ix2 k q) (ix2 k q) (by show k.val = _ * 128 + k.val; rw [e4]; omega) rfl
  refine Finset.sum_congr rfl fun k _ => ?_
  rw [hB, hH, hW]
  congr 4
  refine Finset.sum_congr rfl fun j _ => ?_
  rw [hA, hS]

/-- THE THIRD SUPPORT, at a row and a column, as the first phase computes it from the region's entry contents. -/
theorem s3_apply (c : Dev nD) (r : Fin 10000) (q : Fin 128) :
    S3 V c (ix2 r q)
      = ∑ k : Fin 128, (max ((∑ j : Fin 10000, mat (V c main_v3_0 : S10000x10000.Idx → EReal) r j * mat (V c main_v3_2 : S10000x128.Idx → EReal) j k) + (V c main_v1 : S1x128.Idx → EReal) (ix2 (0 : Fin 1) k)) 0
          + mat (V c main_v3_1 : S10000x128.Idx → EReal) r k) * mat (V c main_arg6 : S128x128.Idx → EReal) k q := by
  have hlt : r.val / 1000 < 10 := by have := r.isLt; omega
  exact slab_apply V c (slabPt (ix2 r q)) hlt (⟨r.val % 1000, Nat.mod_lt _ (by decide)⟩ : Fin 1000) q r
    (by show r.val = 1000 * (r.val / 1000) + r.val % 1000; omega)

/-! ## The block of the result computed at one of the last ten points -/

/-- At a point `t` of the second phase, row `p` of the block is row `1000·(19 − t) + p` of the result: that row of the
    adjacency against the whole third support, plus the third bias. -/
theorem out_block_apply (c : Dev nD) (t : Fin cfg1.N) (ht : 10 ≤ t.val) (p : Fin 1000) (q : Fin 128) (r : Fin 10000)
    (hr : r.val = 1000 * (19 - t.val) + p.val) :
    k1_pay2 (F := Ideal) (iblk1 V c 0 t) (S3 V c) (iblk1 V c 5 t) (ix2 p q)
      = (∑ j : Fin 10000, mat (V c main_v3_0 : S10000x10000.Idx → EReal) r j * S3 V c (ix2 j q)) + (V c main_v2 : S1x128.Idx → EReal) (ix2 (0 : Fin 1) q) := by
  obtain ⟨e0, -, -, -, -, -, -, -, -, -, e5, -⟩ := block_indices1 t
  rw [if_neg (by omega : ¬ t.val < 10)] at e0
  refine (Payloads.k1_pay2_apply (iblk1 V c 0 t) (S3 V c) (iblk1 V c 5 t) p q).trans ?_
  have hA : ∀ j : Fin 10000, (iblk1 V c 0 t : Vec Ideal S1000x10000 .bf16) (ix2 p j) = mat (V c main_v3_0 : S10000x10000.Idx → EReal) r j := fun j =>
    adj_block_apply V c t (ix2 p j) (ix2 r j) (by show r.val = _ * 1000 + p.val; rw [e0, hr]; omega) rfl
  have hB : (iblk1 V c 5 t : Vec Ideal S1x128 .f32) (ix2 (0 : Fin 1) q) = (V c main_v2 : S1x128.Idx → EReal) (ix2 (0 : Fin 1) q) :=
    bias3_block_apply V c t (ix2 (0 : Fin 1) q) (ix2 (0 : Fin 1) q) (by show (0 : Fin 1).val = _ * 1 + (0 : Fin 1).val; rw [e5]; omega) rfl
  rw [hB]
  congr 1
  refine Finset.sum_congr rfl fun j _ => ?_
  rw [hA]

/-- The result array as one function of the region's entry contents: row by row, the adjacency against the third
    support, plus the third bias. -/
def out1 (c : Dev nD) : S10000x128.Idx → EReal := fun i =>
  (∑ j : Fin 10000, mat (V c main_v3_0 : S10000x10000.Idx → EReal) (i 0) j * S3 V c (ix2 j (i 1))) + (V c main_v2 : S1x128.Idx → EReal) (ix2 (0 : Fin 1) (i 1))

/-- WHAT A POINT OF THE SECOND PHASE WRITES BACK is its block of that function. -/
theorem flushed1_6_eq (c : Dev nD) (t : Fin cfg1.N) (ht : 10 ≤ t.val) :
    (dat1 V c).flushed 6 t = ((cfg1.win 6).blk t).view.read (Elt Ideal) (out1 V c) := by
  obtain ⟨-, -, -, -, -, -, -, -, -, -, -, -, e6, e6'⟩ := block_indices1 t
  rw [if_neg (by omega : ¬ t.val < 10)] at e6
  show (cfg1.win 6).cut (grid1.coords t) ((dat1 V c).after 6 t) = _
  rw [after1_6]
  funext y
  rw [View.read_apply]
  have hy0 : (y 0).val < 1000 := (y 0).isLt
  have hy1 : (y 1).val < 128 := (y 1).isLt
  have hx : (win1_6.xinj (grid1.coords t) y : S1000x128.Idx) = ix2 (⟨(y 0).val, hy0⟩ : Fin 1000) (⟨(y 1).val, hy1⟩ : Fin 128) :=
    funext fun a => by match a with | ⟨0, _⟩ => rfl | ⟨1, _⟩ => rfl
  have hi : (((cfg1.win 6).blk t).view.emb y : S10000x128.Idx)
      = ix2 (⟨1000 * (19 - t.val) + (y 0).val, by omega⟩ : Fin 10000) (⟨(y 1).val, hy1⟩ : Fin 128) :=
    funext fun a => Fin.ext (by
      match a with
      | ⟨0, _⟩ => show win1_6.index t (0 : Fin 2) * 1000 + 1 * (y 0).val = 1000 * (19 - t.val) + (y 0).val; rw [e6]; omega
      | ⟨1, _⟩ => show win1_6.index t (1 : Fin 2) * 128 + 1 * (y 1).val = (y 1).val; rw [e6']; omega)
  show k1_pay2 (F := Ideal) (iblk1 V c 0 t) (S3 V c) (iblk1 V c 5 t) (win1_6.xinj (grid1.coords t) y)
    = out1 V c (((cfg1.win 6).blk t).view.emb y)
  rw [hx, hi]
  exact out_block_apply V c t ht _ _ _ rfl

/-- A row and a column are in a point's block of the result iff each lies in the block's range. -/
theorem mem_blk1_6 (t : Fin cfg1.N) (i : S10000x128.Idx) :
    i ∈ ((cfg1.win 6).blk t).view.set ↔ ∀ a : Fin 2, win1_6.index t a * S1000x128.size a ≤ (i a).val
      ∧ (i a).val < win1_6.index t a * S1000x128.size a + S1000x128.size a := by
  show i ∈ ((View.whole main_v4).slice (win1_6.rect t)).set ↔ _
  rw [View.set_slice_whole, Rect.mem_set_unit]
  exact Iff.rfl

/-- Every row of the result is in the block some point of the second phase writes back: row `r` at point
    `19 − r / 1000`. -/
theorem cover1_6 (i : S10000x128.Idx) :
    ∃ t : Fin cfg1.N, (cfg1.win 6).flush t = true ∧ i ∈ ((cfg1.win 6).blk t).view.set := by
  have hi0 : (i 0).val < 10000 := idx2_lt0 i
  have hi1 : (i 1).val < 128 := idx2_lt1 i
  have hN : 20 ≤ cfg1.N := by decide
  have hlt : 19 - (i 0).val / 1000 < cfg1.N := lt_of_lt_of_le (by omega : 19 - (i 0).val / 1000 < 20) hN
  have ht : 10 ≤ (⟨19 - (i 0).val / 1000, hlt⟩ : Fin cfg1.N).val := by show 10 ≤ 19 - (i 0).val / 1000; omega
  obtain ⟨-, -, -, -, -, -, -, -, -, -, -, -, e6, e6'⟩ := block_indices1 ⟨19 - (i 0).val / 1000, hlt⟩
  rw [if_neg (by show ¬ (19 - (i 0).val / 1000 < 10); omega)] at e6
  refine ⟨⟨19 - (i 0).val / 1000, hlt⟩, (flush1_6_iff _).mpr ht, ?_⟩
  rw [mem_blk1_6]
  intro a
  match a with
  | ⟨0, _⟩ =>
    show win1_6.index ⟨19 - (i 0).val / 1000, hlt⟩ (0 : Fin 2) * 1000 ≤ (i 0).val
      ∧ (i 0).val < win1_6.index ⟨19 - (i 0).val / 1000, hlt⟩ (0 : Fin 2) * 1000 + 1000
    rw [e6]; show (19 - (19 - (i 0).val / 1000)) * 1000 ≤ (i 0).val ∧ (i 0).val < (19 - (19 - (i 0).val / 1000)) * 1000 + 1000
    omega
  | ⟨1, _⟩ =>
    show win1_6.index ⟨19 - (i 0).val / 1000, hlt⟩ (1 : Fin 2) * 128 ≤ (i 1).val
      ∧ (i 1).val < win1_6.index ⟨19 - (i 0).val / 1000, hlt⟩ (1 : Fin 2) * 128 + 128
    rw [e6']; omega

/-- THE RESULT ARRAY after the region is that function of the region's entry contents. -/
theorem final1_6_eq (c : Dev nD) : (dat1 V c).arrAt 6 cfg1.N = out1 V c :=
  (dat1 V c).arrAt_eq_of_cover 6 (out1 V c) (fun t hf => flushed1_6_eq V c t ((flush1_6_iff t).mp hf)) cover1_6

/-- THE RESULT ARRAY after the region, at a row and a column. -/
theorem final1_6 (c : Dev nD) (r : Fin 10000) (q : Fin 128) :
    ((dat1 V c).arrAt 6 cfg1.N : S10000x128.Idx → EReal) (ix2 r q)
      = (∑ j : Fin 10000, mat (V c main_v3_0 : S10000x10000.Idx → EReal) r j * S3 V c (ix2 j q)) + (V c main_v2 : S1x128.Idx → EReal) (ix2 (0 : Fin 1) q) := by
  rw [final1_6_eq]
  rfl

end Value1

end Cert.KernelIdeal.Hand

end
-- ==== Proof.IdealResult.lean ====
import proofs.«108309_g5239860101595_cont_sun_m_358_23_alg».proof.Proof.IdealEntry
import proofs.«108309_g5239860101595_cont_sun_m_358_23_alg».proof.Proof.IdealValue1
import proofs.«108309_g5239860101595_cont_sun_m_358_23_alg».proof.Proof.IdealFrame
import proofs.«108309_g5239860101595_cont_sun_m_358_23_alg».proof.Proof.Gen.KernelIdeal.Skeleton
import proofs.«108309_g5239860101595_cont_sun_m_358_23_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The result of the idealized kernel is the specification

Region 1's scratch holds the third layer's support, computed from region 0's outputs; its result array is the
adjacency times that support plus the third bias. With region 0's outputs read back to the launch arrays this is the
network of the specification, sum for sum: no law beyond unfolding is used. -/

open Cert.GcnSpec Idealize.ShloMosaic.ValueIdx

variable (m : (ℓ : Loc nD τ sig) → Buf (Elt Ideal) ℓ) (ρ : Dev nD → PrngReg)

/-- The scratch of region 1 is the third layer's support. -/
theorem S3_V2 (c : Dev nD) (r : Fin 10000) (q : Fin 128) :
    S3 (V2 m ρ) c (ix2 r q)
      = support (hidden2 (A m c) (X m c) (Wt1 m c) (bs1 m c) (Wt2 m c) (bs2 m c)) (Wt3 m c) r q := by
  refine (s3_apply (V2 m ρ) c r q).trans ?_
  show _ = ∑ k : Fin 128, hidden2 (A m c) (X m c) (Wt1 m c) (bs1 m c) (Wt2 m c) (bs2 m c) r k * Wt3 m c k q
  refine Finset.sum_congr rfl fun k _ => ?_
  simp only [mat]
  rw [V2_bias2, V2_hidden1, V2_weight3]
  show _ = (max ((∑ j : Fin 10000, A m c r j * support (hidden1 (A m c) (X m c) (Wt1 m c) (bs1 m c)) (Wt2 m c) j k) + bs2 m c k) 0
        + hidden1 (A m c) (X m c) (Wt1 m c) (bs1 m c) r k) * Wt3 m c k q
  congr 4
  exact Finset.sum_congr rfl fun j _ => by rw [V2_adj, V2_support2]

/-- The result array of region 1 is the network's output. -/
theorem result_apply (c : Dev nD) (r : Fin 10000) (q : Fin 128) :
    ((dat1 (V2 m ρ) c).arrAt 6 cfg1.N : S10000x128.Idx → EReal) (ix2 r q)
      = output (A m c) (X m c) (Wt1 m c) (bs1 m c) (Wt2 m c) (bs2 m c) (Wt3 m c) (bs3 m c) r q := by
  refine (final1_6 (V2 m ρ) c r q).trans ?_
  simp only [mat]
  rw [V2_bias3]
  show _ = (∑ j : Fin 10000, A m c r j * support (hidden2 (A m c) (X m c) (Wt1 m c) (bs1 m c) (Wt2 m c) (bs2 m c)) (Wt3 m c) j q) + bs3 m c q
  congr 1
  exact Finset.sum_congr rfl fun j _ => by rw [V2_adj, S3_V2]

/-- The result buffer after the run is the specification's function of the launch arrays. -/
theorem result (c : Dev nD) :
    W3 m ρ c (Proc.devRef .tc main_v4)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W3_arr m ρ c 6).trans ?_
  funext i
  obtain ⟨r, q, rfl⟩ : ∃ (r : Fin 10000) (q : Fin 128), i = ix2 r q := ⟨i 0, i 1, eq_ix2 i⟩
  exact (result_apply m ρ c r q).trans (G_ix2 _ _ _ _ _ _ _ _ r q).symm

/-- THE VALUE RUN: the idealized kernel terminates with its result at the specification and its arguments unchanged. -/
theorem run_value : θ_run defs (onTc (τ := τ) (main (F := Ideal))) ⟨m, fun _ => 0, ρ⟩ (fun r => ∀ c : Dev nD,
      r.2.mem ((c.tc : Thread nD τ).loc main_v4)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v4 (by decide))).trans (result m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c)⟩) (run_all (F := Ideal) m ρ)

end Cert.KernelIdeal.Hand

end
-- ==== Proof.RefIsSpec.lean ====
import proofs.«108309_g5239860101595_cont_sun_m_358_23_alg».proof.Defs
import proofs.«108309_g5239860101595_cont_sun_m_358_23_alg».proof.Proof.Gen.ReferenceIdeal.Run
import proofs.«108309_g5239860101595_cont_sun_m_358_23_alg».proof.Proof.Gen.ReferenceIdeal.Read
import proofs.«108309_g5239860101595_cont_sun_m_358_23_alg».proof.Proof.GcnSpec
import Idealize.ShloMosaic.Lib.ValueIdx
import Idealize.ShloMosaic.PureOps.Ideal.Laws

/-!
  The host program's result is the three-layer network of the specification, index by index.

  The program is a chain of eighteen stages.  Each layer is four of them: the features times the weight
  (a contraction over 128), the adjacency times that product (a contraction over 10000), the bias laid along
  the rows, and their sum; the first two layers are then clamped below at the zero word, and the second adds
  the first back.  Read at the index with coordinates (r, q), every stage is literally the corresponding
  function of the specification at (r, q): the contractions are the same sums in the same grouping, so the
  only work is to name the operand indices of each contraction by their coordinates and to read the zero
  word as the number 0.
-/

noncomputable section

open scoped BigOperators

namespace Cert.ReferenceIdeal.RefValue

open Cert.ReferenceIdeal Cert.ReferenceIdeal.Read Idealize.ShloMosaic Idealize.ShloMosaic.ValueIdx Cert.GcnSpec

/-! ## The operand indices of the contractions, by coordinates -/

/-- Two rank-2 indices with the same two coordinates are equal. -/
local macro "coords2" : tactic =>
  `(tactic| exact funext fun a => Fin.ext (by match a with | ⟨0, _⟩ => rfl | ⟨1, _⟩ => rfl))

theorem lidx_v0 (r : Fin 10000) (q k : Fin 128) : lidx_main_v0 (ix2 r q) k = ix2 r k := by coords2
theorem ridx_v0 (r : Fin 10000) (q k : Fin 128) : ridx_main_v0 (ix2 r q) k = ix2 k q := by coords2
theorem lidx_v6 (r : Fin 10000) (q k : Fin 128) : lidx_main_v6 (ix2 r q) k = ix2 r k := by coords2
theorem ridx_v6 (r : Fin 10000) (q k : Fin 128) : ridx_main_v6 (ix2 r q) k = ix2 k q := by coords2
theorem lidx_v13 (r : Fin 10000) (q k : Fin 128) : lidx_main_v13 (ix2 r q) k = ix2 r k := by coords2
theorem ridx_v13 (r : Fin 10000) (q k : Fin 128) : ridx_main_v13 (ix2 r q) k = ix2 k q := by coords2
theorem lidx_v1 (r : Fin 10000) (q : Fin 128) (j : Fin 10000) : lidx_main_v1 (ix2 r q) j = ix2 r j := by coords2
theorem ridx_v1 (r : Fin 10000) (q : Fin 128) (j : Fin 10000) : ridx_main_v1 (ix2 r q) j = ix2 j q := by coords2
theorem lidx_v7 (r : Fin 10000) (q : Fin 128) (j : Fin 10000) : lidx_main_v7 (ix2 r q) j = ix2 r j := by coords2
theorem ridx_v7 (r : Fin 10000) (q : Fin 128) (j : Fin 10000) : ridx_main_v7 (ix2 r q) j = ix2 j q := by coords2
theorem lidx_v14 (r : Fin 10000) (q : Fin 128) (j : Fin 10000) : lidx_main_v14 (ix2 r q) j = ix2 r j := by coords2
theorem ridx_v14 (r : Fin 10000) (q : Fin 128) (j : Fin 10000) : ridx_main_v14 (ix2 r q) j = ix2 j q := by coords2

/-- The bias laid along the rows is read at the column: the two broadcasts compose to the column's coordinate. -/
theorem bias_idx_v3 (r : Fin 10000) (q : Fin 128) : idx_main_v2 (idx_main_v3 (ix2 r q)) = ix1 q :=
  funext fun a => Fin.ext (by match a with | ⟨0, _⟩ => rfl)
theorem bias_idx_v9 (r : Fin 10000) (q : Fin 128) : idx_main_v8 (idx_main_v9 (ix2 r q)) = ix1 q :=
  funext fun a => Fin.ext (by match a with | ⟨0, _⟩ => rfl)
theorem bias_idx_v16 (r : Fin 10000) (q : Fin 128) : idx_main_v15 (idx_main_v16 (ix2 r q)) = ix1 q :=
  funext fun a => Fin.ext (by match a with | ⟨0, _⟩ => rfl)

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))

/-! ## The clamp's zero -/

/-- The first clamp's constant array is 0 everywhere: the word of all zero bits is the number 0. -/
theorem zero_call0 (i : S10000x128.Idx) : val_main_call0_v0 (F := Ideal) i = 0 := by
  rw [val_main_call0_v0_apply, val_main_call0_cst_apply, Ideal.ofBits_def, Ideal.ofBits_zero_f32]

/-- The second clamp's constant array is 0 everywhere. -/
theorem zero_call1 (i : S10000x128.Idx) : val_main_call1_v0 (F := Ideal) i = 0 := by
  rw [val_main_call1_v0_apply, val_main_call1_cst_apply, Ideal.ofBits_def, Ideal.ofBits_zero_f32]

/-! ## The first layer -/

/-- The features times the first weight. -/
theorem support1 (r : Fin 10000) (q : Fin 128) :
    val_main_v0 (F := Ideal) x0 x2 (ix2 r q) = support (mat x0) (mat x2) r q := by
  rw [val_main_v0_apply]
  refine Finset.sum_congr rfl fun k _ => ?_
  rw [lidx_v0, ridx_v0]
  rfl

/-- The adjacency times the first support. -/
theorem agg1 (r : Fin 10000) (q : Fin 128) :
    val_main_v1 (F := Ideal) x0 x1 x2 (ix2 r q) = ∑ j : Fin 10000, mat x1 r j * support (mat x0) (mat x2) j q := by
  rw [val_main_v1_apply]
  refine Finset.sum_congr rfl fun j _ => ?_
  rw [lidx_v1, ridx_v1, support1]
  rfl

/-- The first bias along the rows. -/
theorem bias1 (r : Fin 10000) (q : Fin 128) : val_main_v3 (F := Ideal) x3 (ix2 r q) = vec x3 q := by
  rw [val_main_v3_apply, val_main_v2_apply, bias_idx_v3]
  rfl

/-- The first convolution. -/
theorem conv1 (r : Fin 10000) (q : Fin 128) :
    val_main_v4 (F := Ideal) x0 x1 x2 x3 (ix2 r q) = conv (mat x1) (support (mat x0) (mat x2)) (vec x3) r q := by
  rw [val_main_v4_apply, agg1, bias1]
  rfl

/-- The first hidden layer. -/
theorem layer1 (r : Fin 10000) (q : Fin 128) :
    val_main_v5 (F := Ideal) x0 x1 x2 x3 (ix2 r q) = hidden1 (mat x1) (mat x0) (mat x2) (vec x3) r q := by
  rw [val_main_v5_apply, conv1, zero_call0]
  rfl

/-! ## The second layer -/

/-- The first hidden layer times the second weight. -/
theorem support2 (r : Fin 10000) (q : Fin 128) :
    val_main_v6 (F := Ideal) x0 x1 x2 x3 x4 (ix2 r q)
      = support (hidden1 (mat x1) (mat x0) (mat x2) (vec x3)) (mat x4) r q := by
  rw [val_main_v6_apply]
  refine Finset.sum_congr rfl fun k _ => ?_
  rw [lidx_v6, ridx_v6, layer1]
  rfl

/-- The adjacency times the second support. -/
theorem agg2 (r : Fin 10000) (q : Fin 128) :
    val_main_v7 (F := Ideal) x0 x1 x2 x3 x4 (ix2 r q)
      = ∑ j : Fin 10000, mat x1 r j * support (hidden1 (mat x1) (mat x0) (mat x2) (vec x3)) (mat x4) j q := by
  rw [val_main_v7_apply]
  refine Finset.sum_congr rfl fun j _ => ?_
  rw [lidx_v7, ridx_v7, support2]
  rfl

/-- The second bias along the rows. -/
theorem bias2 (r : Fin 10000) (q : Fin 128) : val_main_v9 (F := Ideal) x5 (ix2 r q) = vec x5 q := by
  rw [val_main_v9_apply, val_main_v8_apply, bias_idx_v9]
  rfl

/-- The second convolution. -/
theorem conv2 (r : Fin 10000) (q : Fin 128) :
    val_main_v10 (F := Ideal) x0 x1 x2 x3 x4 x5 (ix2 r q)
      = conv (mat x1) (support (hidden1 (mat x1) (mat x0) (mat x2) (vec x3)) (mat x4)) (vec x5) r q := by
  rw [val_main_v10_apply, agg2, bias2]
  rfl

/-- The second hidden layer: the clamped second convolution plus the first hidden layer. -/
theorem layer2 (r : Fin 10000) (q : Fin 128) :
    val_main_v12 (F := Ideal) x0 x1 x2 x3 x4 x5 (ix2 r q)
      = hidden2 (mat x1) (mat x0) (mat x2) (vec x3) (mat x4) (vec x5) r q := by
  rw [val_main_v12_apply, val_main_v11_apply, conv2, zero_call1, layer1]
  rfl

/-! ## The output layer -/

/-- The second hidden layer times the third weight. -/
theorem support3 (r : Fin 10000) (q : Fin 128) :
    val_main_v13 (F := Ideal) x0 x1 x2 x3 x4 x5 x6 (ix2 r q)
      = support (hidden2 (mat x1) (mat x0) (mat x2) (vec x3) (mat x4) (vec x5)) (mat x6) r q := by
  rw [val_main_v13_apply]
  refine Finset.sum_congr rfl fun k _ => ?_
  rw [lidx_v13, ridx_v13, layer2]
  rfl

/-- The adjacency times the third support. -/
theorem agg3 (r : Fin 10000) (q : Fin 128) :
    val_main_v14 (F := Ideal) x0 x1 x2 x3 x4 x5 x6 (ix2 r q)
      = ∑ j : Fin 10000, mat x1 r j
          * support (hidden2 (mat x1) (mat x0) (mat x2) (vec x3) (mat x4) (vec x5)) (mat x6) j q := by
  rw [val_main_v14_apply]
  refine Finset.sum_congr rfl fun j _ => ?_
  rw [lidx_v14, ridx_v14, support3]
  rfl

/-- The third bias along the rows. -/
theorem bias3 (r : Fin 10000) (q : Fin 128) : val_main_v16 (F := Ideal) x7 (ix2 r q) = vec x7 q := by
  rw [val_main_v16_apply, val_main_v15_apply, bias_idx_v16]
  rfl

/-- The output layer. -/
theorem layer3 (r : Fin 10000) (q : Fin 128) :
    val_main_v17 (F := Ideal) x0 x1 x2 x3 x4 x5 x6 x7 (ix2 r q)
      = output (mat x1) (mat x0) (mat x2) (vec x3) (mat x4) (vec x5) (mat x6) (vec x7) r q := by
  rw [val_main_v17_apply, agg3, bias3]
  rfl

/-! ## The result -/

/-- The host program's last stage is the specification's network of the same eight argument arrays. -/
theorem result_eq :
    Cert.ReferenceIdeal.Read.val_main_v17 (F := Ideal) x0 x1 x2 x3 x4 x5 x6 x7
      = Cert.GcnSpec.G x0 x1 x2 x3 x4 x5 x6 x7 := by
  funext i
  obtain ⟨r, q, rfl⟩ : ∃ (r : Fin 10000) (q : Fin 128), i = ix2 r q := ⟨i 0, i 1, eq_ix2 i⟩
  rw [layer3]
  rfl

/-! ## The frame -/

/-- The host program runs to completion and leaves its argument arrays as it found them: its run, with the
    statement about the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.lean ====
/-
  Three stacked graph convolutions over a dense 10000 × 10000 adjacency: a two-call tiled kernel against its plain
  reference, as extended reals.

  The kernel's first call walks the adjacency in 25 blocks of 400 rows; its first grid point computes the first layer's
  support X·W₁ once into a scratch that every later point reads, and each point writes its block of the adjacency (a
  narrowed copy: the same numbers at the ideal instance), of h₁ = max(A·(X·W₁) + b₁, 0) and of the second support h₁·W₂.
  The second call walks the copy in 20 steps: ten write, slab by slab, the third support (max(A·(h₁·W₂) + b₂, 0) + h₁)·W₃
  into a scratch, ten more read the whole scratch and write one block each of A·(that) + b₃, in reverse order.

  At the ideal instance every change of float format is the identity and each product is a plain sum, taken by the
  kernel in the reference's own grouping (the weight's product first, the adjacency's second), so the two results agree
  sum for sum and the finiteness of the inputs is never used. What has to be proved is that the tiling is right: each
  region's run (its body at every grid point, the scratch carried from point to point as an invariant), the arrays the
  write-backs leave — every row covered by exactly the block that owns it —, and the chain from one region's outputs to
  the next region's windows. The frames (every run ends, faults nowhere, leaves the arguments unchanged) fall out of the
  same runs: no host operation and no write-back touches an argument's buffer. The idealization rewrote no operation,
  so there is nothing to preserve.
-/
import proofs.«108309_g5239860101595_cont_sun_m_358_23_alg».proof.Defs
import proofs.«108309_g5239860101595_cont_sun_m_358_23_alg».proof.Proof.Gen.Kernel
import proofs.«108309_g5239860101595_cont_sun_m_358_23_alg».proof.Proof.Gen.KernelIdeal
import proofs.«108309_g5239860101595_cont_sun_m_358_23_alg».proof.Proof.Gen.ReferenceIdeal
import proofs.«108309_g5239860101595_cont_sun_m_358_23_alg».proof.Proof.Gen.Pre_finite_inputs
import proofs.«108309_g5239860101595_cont_sun_m_358_23_alg».proof.Proof.BitsFrame
import proofs.«108309_g5239860101595_cont_sun_m_358_23_alg».proof.Proof.IdealFrame
import proofs.«108309_g5239860101595_cont_sun_m_358_23_alg».proof.Proof.IdealResult
import proofs.«108309_g5239860101595_cont_sun_m_358_23_alg».proof.Proof.RefIsSpec
import Idealize.ShloMosaic.Adequacy
import Idealize.ShloMosaic.Init

noncomputable section

namespace Cert.Proof

open Idealize.ShloMosaic Idealize.ShloMosaic.TcCoe Idealize.SL.Sem

/-- The two idealized programs, run from memories agreeing on the arguments, end with one result: the network of the
    specification, as a function of the argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.ReferenceIdeal.Read.val_main_v17_eq _ _ _ _ _ _ _ _).trans (Cert.ReferenceIdeal.RefValue.result_eq _ _ _ _ _ _ _ _)

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  @Cert.ReferenceIdeal.RefValue.frame_ri Cert.ReferenceIdeal.Gen.facts Cert.Pre_finite_inputs.Gen.facts,
  trivial,
  algebraic⟩

end Cert.Proof

end
